-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S8x96 : Shape := ⟨2, ![8, 96]⟩
abbrev S8 : Shape := ⟨1, ![8]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S8x96 : S_.BroadcastsInDim S8x96 (![] : Fin 0 → Fin S8x96.rank)
  reducesTo_S8x96_S_d0_1 : S8x96.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S96 .f32) (main_arg7 : FVec F S8x96 .f32) (main_arg8 : FVec F S8 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S8x96 .f32 := Host.absf main_arg7
  let main_cst_8 : FVec F S_ .f32 := constant S_ .f32 0x7F800000#32
  let main_v25 : FVec F S8x96 .f32 := broadcastInDim S8x96 ![] bcast_S_S8x96 main_cst_8
  let main_v26 : IVec S8x96 1 := cmpf .olt main_v24 main_v25
  let main_c_9 : IVec S_ 1 := constantI S_ 1 1#1
  let main_v27 : IVec S_ 1 := (fun x v => Host.reduce IntOp.andi x v reducesTo_S8x96_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S50000x96 .f32) (main_arg1 : IVec S800000 32) (main_arg2 : IVec S800000 32) (main_arg3 : FVec F S96x96 .f32) (main_arg4 : FVec F S96 .f32) (main_arg5 : FVec F S96x96 .f32) (main_arg6 : FVec F S96 .f32) (main_arg7 : FVec F S8x96 .f32) (main_arg8 : FVec F S8 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S8x96 : Shape := ⟨2, ![8, 96]⟩
abbrev S8 : Shape := ⟨1, ![8]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x96 : Shape := ⟨2, ![5000, 96]⟩
abbrev S5000x1 : Shape := ⟨2, ![5000, 1]⟩
abbrev S800000x96 : Shape := ⟨2, ![800000, 96]⟩
abbrev S1x96 : Shape := ⟨2, ![1, 96]⟩
abbrev S96x8 : Shape := ⟨2, ![96, 8]⟩
abbrev S1x8 : Shape := ⟨2, ![1, 8]⟩

abbrev nBuf : Space → Nat
  | .hbm => 70
  | .vmem => 34
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S8x96, .f32⟩
  | .hbm, ⟨8, _⟩ => ⟨S8, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S50000x96, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x96, .f32⟩
  | .hbm, ⟨45, _⟩ => ⟨S_, .f32⟩
  | .hbm, ⟨46, _⟩ => ⟨S50000x96, .f32⟩
  | .hbm, ⟨47, _⟩ => ⟨S800000x1, .i32⟩
  | .hbm, ⟨48, _⟩ => ⟨S50000x96, .f32⟩
  | .hbm, ⟨49, _⟩ => ⟨S1x96, .f32⟩
  | .hbm, ⟨50, _⟩ => ⟨S50000x96, .f32⟩
  | .hbm, ⟨51, _⟩ => ⟨S50000x96, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S1x96, .f32⟩
  | .hbm, ⟨66, _⟩ => ⟨S50000x96, .f32⟩
  | .hbm, ⟨67, _⟩ => ⟨S96x8, .f32⟩
  | .hbm, ⟨68, _⟩ => ⟨S1x8, .f32⟩
  | .hbm, ⟨69, _⟩ => ⟨S1x8, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x1, .f32⟩
  | .local _ .vmem, ⟨9, _⟩ => ⟨S5000x1, .f32⟩
  | .local _ .vmem, ⟨10, _⟩ => ⟨S96x96, .f32⟩
  | .local _ .vmem, ⟨11, _⟩ => ⟨S1x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x1, .f32⟩
  | .local _ .vmem, ⟨17, _⟩ => ⟨S5000x1, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x1, .f32⟩
  | .local _ .vmem, ⟨23, _⟩ => ⟨S5000x1, .f32⟩
  | .local _ .vmem, ⟨24, _⟩ => ⟨S96x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S96x8, .f32⟩
  | .local _ .vmem, ⟨31, _⟩ => ⟨S1x8, .f32⟩
  | .local _ .vmem, ⟨32, _⟩ => ⟨S1x8, .f32⟩
  | .local _ .vmem, ⟨33, _⟩ => ⟨S1x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x96_S5000x96_0_0 : ∀ a, (![0, 0] : Fin 2 → Nat) a + S5000x96.size a ≤ S5000x96.size a
  h_S5000x96 : 0 < S5000x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  transposes_S8x96_S96x8_1_0 : S8x96.Transposes [1, 0] S96x8
  shapeCasts_S8_S1x8 : S8.ShapeCasts S1x8
  reduces_S5000x96_S96 : S5000x96.Reduces [0] S96
  inb_S96x8_S96x8_0_0 : ∀ a, (![0, 0] : Fin 2 → Nat) a + S96x8.size a ≤ S96x8.size a
  h_S96x8 : 0 < S96x8.numel
  shapeCasts_S96x8_S96x8 : S96x8.ShapeCasts S96x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S1x96_S96x8_S1x8_1_0_0_1_n_n_wf : DotDims.WF S1x96 S96x8 S1x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x8.size a ≤ S96x8.size a
  hwx4_1 : ∀ i : grid4.Coords, EltTy.bits .f32 = 32 ∨ (Rect.block (s := S96x8) S96x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x8.size a ≤ S1x8.size a
  hwx4_3 : ∀ i : grid4.Coords, EltTy.bits .f32 = 32 ∨ (Rect.block (s := S1x8) S1x8.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S1x96_S96x8_S1x8_1_0_0_1_n_n : DotDims S1x96 S96x8 S1x8 where
  lhsContracting := [1]
  rhsContracting := [0]
  lhsNonContracting := [0]
  rhsNonContracting := [1]
  lhsBatch := []
  rhsBatch := []
  wf := dot_S1x96_S96x8_S1x8_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S96x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1x8.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S8x96 : Shape := ⟨2, ![8, 96]⟩
abbrev S8 : Shape := ⟨1, ![8]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96 : Shape := ⟨2, ![1, 96]⟩
abbrev S96x8 : Shape := ⟨2, ![96, 8]⟩
abbrev S1x8 : Shape := ⟨2, ![1, 8]⟩

abbrev nBuf : Space → Nat
  | .hbm => 92
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S8x96, .f32⟩
  | .hbm, ⟨8, _⟩ => ⟨S8, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x96, .f32⟩
  | .hbm, ⟨35, _⟩ => ⟨S50000x96, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x96, .f32⟩
  | .hbm, ⟨45, _⟩ => ⟨S_, .f32⟩
  | .hbm, ⟨46, _⟩ => ⟨S50000x96, .f32⟩
  | .hbm, ⟨47, _⟩ => ⟨S800000x1, .i32⟩
  | .hbm, ⟨48, _⟩ => ⟨S50000x96, .f32⟩
  | .hbm, ⟨49, _⟩ => ⟨S50000x1, .f32⟩
  | .hbm, ⟨50, _⟩ => ⟨S50000x96, .f32⟩
  | .hbm, ⟨51, _⟩ => ⟨S50000x96, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S_, .f32⟩
  | .hbm, ⟨57, _⟩ => ⟨S50000x96, .f32⟩
  | .hbm, ⟨58, _⟩ => ⟨S50000x96, .f32⟩
  | .hbm, ⟨59, _⟩ => ⟨S50000x1, .f32⟩
  | .hbm, ⟨60, _⟩ => ⟨S50000x96, .f32⟩
  | .hbm, ⟨61, _⟩ => ⟨S50000x96, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x96, .f32⟩
  | .hbm, ⟨71, _⟩ => ⟨S_, .f32⟩
  | .hbm, ⟨72, _⟩ => ⟨S50000x96, .f32⟩
  | .hbm, ⟨73, _⟩ => ⟨S800000x1, .i32⟩
  | .hbm, ⟨74, _⟩ => ⟨S50000x96, .f32⟩
  | .hbm, ⟨75, _⟩ => ⟨S50000x1, .f32⟩
  | .hbm, ⟨76, _⟩ => ⟨S50000x96, .f32⟩
  | .hbm, ⟨77, _⟩ => ⟨S50000x96, .f32⟩
  | .hbm, ⟨78, _⟩ => ⟨S50000x96, .f32⟩
  | .hbm, ⟨79, _⟩ => ⟨S1x96, .f32⟩
  | .hbm, ⟨80, _⟩ => ⟨S50000x96, .f32⟩
  | .hbm, ⟨81, _⟩ => ⟨S50000x96, .f32⟩
  | .hbm, ⟨82, _⟩ => ⟨S_, .f32⟩
  | .hbm, ⟨83, _⟩ => ⟨S96, .f32⟩
  | .hbm, ⟨84, _⟩ => ⟨S1x96, .f32⟩
  | .hbm, ⟨85, _⟩ => ⟨S_, .f32⟩
  | .hbm, ⟨86, _⟩ => ⟨S1x96, .f32⟩
  | .hbm, ⟨87, _⟩ => ⟨S1x96, .f32⟩
  | .hbm, ⟨88, _⟩ => ⟨S96x8, .f32⟩
  | .hbm, ⟨89, _⟩ => ⟨S1x8, .f32⟩
  | .hbm, ⟨90, _⟩ => ⟨S1x8, .f32⟩
  | .hbm, ⟨91, _⟩ => ⟨S1x8, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S1x96 : S_.BroadcastsInDim S1x96 (![] : Fin 0 → Fin S1x96.rank)
  transposes_S8x96_S96x8_1_0 : S8x96.Transposes [1, 0] S96x8
  bcast_S8_S1x8_1 : S8.BroadcastsInDim S1x8 (![1] : Fin 1 → Fin S1x8.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S1x96_S96x8_S1x8_1_0_0_1_n_n_wf : DotDims.WF S1x96 S96x8 S1x8 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S1x96_S96x8_S1x8_1_0_0_1_n_n : DotDims S1x96 S96x8 S1x8 where
  lhsContracting := [1]
  rhsContracting := [0]
  lhsNonContracting := [0]
  rhsNonContracting := [1]
  lhsBatch := []
  rhsBatch := []
  wf := dot_S1x96_S96x8_S1x8_1_0_0_1_n_n_wf

class Facts : Prop extends Facts₀ where

variable [Facts]
-- ==== Proof.Body0123.lean ====
/-
  The four row-tiled regions of the program's @main whose bodies are one load of each input block, one pure
  computation, one store of the whole output block — two "scale the rows" regions and two dense layers. For each,
  at the buffer contents `V` the region is entered with: the block a window shows at a grid point, what the body
  leaves in the output block as a function of the input blocks, the body's run, the pipeline's proof data and the
  obligation "at every grid point the body, given the windows' current blocks, returns them with the output block
  at that function". Nothing here depends on which float instance the program is read at.
-/
import proofs.«165250_j58265526337787_1_alg».proof.Proof.Gen.KernelIdeal.Launch
import proofs.«165250_j58265526337787_1_alg».proof.Proof.Gen.KernelIdeal.Skeleton
import proofs.«165250_j58265526337787_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0 of @main (cc0__scale_rows_kernel), at the entry contents `V`: the message scaling before the first gather: each feature row times its node's out-degree norm -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body at any point the current staging buffer of input window 0 holds that window's block: either it was
    fetched for this point, or the index map has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Before the body at any point the current staging buffer of input window 1 holds that window's block: either it was
    fetched for this point, or the index map has not moved since it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S5000x96 := Rect.unit (s := S5000x96) ![0, 0] S5000x96.size inb_S5000x96_S5000x96_0_0
abbrev r0_1 : Rect S5000x1 := Rect.unit (s := S5000x1) ![0, 0] S5000x1.size inb_S5000x1_S5000x1_0_0
abbrev r0_2 : Rect S5000x96 := Rect.unit (s := S5000x96) ![0, 0] S5000x96.size inb_S5000x96_S5000x96_0_0

/-- What the body leaves in the output window's staging buffer, from the input blocks: its one whole-block store. -/
def out0_2 (x0 : Vec F S5000x96 .f32) (x1 : Vec F S5000x1 .f32) : Vec F S5000x96 .f32 :=
  View.canon [⟨r0_2, k0_pay1 (View.ld x0 r0_0) (View.ld x1 r0_1)⟩]

/-- The one store is of the whole block, so it covers it. -/
theorem cover0_2 (p0 : Vec F S5000x96 .f32) (y : S5000x96.Idx) :
    ∃ pc ∈ ([⟨r0_2, p0⟩] : List (View.Piece (Elt F) S5000x96 .f32)), y ∈ pc.1.set :=
  View.cover_of_tiled [⟨r0_2, p0⟩] S5000x96.size (by rfl) y

set_option maxHeartbeats 1000000 in
/-- The body on whole staging memrefs — the inputs' at contents `x·`, the output's at anything — runs to a state with the
    inputs' as they were and the output's at `out0_2` of the inputs. -/
theorem sound_kernel0 (c : Dev nD) (E : Set ℕ) (i : grid0.Coords) (arg1 : Memref sig .tc .vmem S5000x96 .f32) (harg1 : arg1.IsWhole) (arg2 : Memref sig .tc .vmem S5000x1 .f32) (harg2 : arg2.IsWhole) (arg3 : Memref sig .tc .vmem S5000x96 .f32) (harg3 : arg3.IsWhole)
    (x0 : Vec F S5000x96 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_rows_kernel i arg1 harg1 arg2 harg2 arg3 harg3) K := by
  simp only [cc0__scale_rows_kernel_eq_skeleton]; unfold cc0__scale_rows_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer still at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main (cc1__graph_conv_dense_kernel), at the entry contents `V`: the first dense layer: rows scaled by the in-degree norm, times the weights, plus the bias, clamped at zero -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Before the body at any point the current staging buffer of input window 0 holds that window's block: either it was
    fetched for this point, or the index map has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 1 holds that window's block: either it was
    fetched for this point, or the index map has not moved since it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 2 holds that window's block: either it was
    fetched for this point, or the index map has not moved since it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 3 holds that window's block: either it was
    fetched for this point, or the index map has not moved since it was. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S5000x96 := Rect.unit (s := S5000x96) ![0, 0] S5000x96.size inb_S5000x96_S5000x96_0_0
abbrev r1_1 : Rect S5000x1 := Rect.unit (s := S5000x1) ![0, 0] S5000x1.size inb_S5000x1_S5000x1_0_0
abbrev r1_2 : Rect S96x96 := Rect.unit (s := S96x96) ![0, 0] S96x96.size inb_S96x96_S96x96_0_0
abbrev r1_3 : Rect S1x96 := Rect.unit (s := S1x96) ![0, 0] S1x96.size inb_S1x96_S1x96_0_0
abbrev r1_4 : Rect S5000x96 := Rect.unit (s := S5000x96) ![0, 0] S5000x96.size inb_S5000x96_S5000x96_0_0

/-- What the body leaves in the output window's staging buffer, from the input blocks: its one whole-block store. -/
def out1_4 (x0 : Vec F S5000x96 .f32) (x1 : Vec F S5000x1 .f32) (x2 : Vec F S96x96 .f32) (x3 : Vec F S1x96 .f32) : Vec F S5000x96 .f32 :=
  View.canon [⟨r1_4, k1_pay1 (View.ld x0 r1_0) (View.ld x1 r1_1) (View.ld x2 r1_2) (View.ld x3 r1_3)⟩]

/-- The one store is of the whole block, so it covers it. -/
theorem cover1_4 (p0 : Vec F S5000x96 .f32) (y : S5000x96.Idx) :
    ∃ pc ∈ ([⟨r1_4, p0⟩] : List (View.Piece (Elt F) S5000x96 .f32)), y ∈ pc.1.set :=
  View.cover_of_tiled [⟨r1_4, p0⟩] S5000x96.size (by rfl) y

set_option maxHeartbeats 1000000 in
/-- The body on whole staging memrefs — the inputs' at contents `x·`, the output's at anything — runs to a state with the
    inputs' as they were and the output's at `out1_4` of the inputs. -/
theorem sound_kernel1 (c : Dev nD) (E : Set ℕ) (i : grid1.Coords) (arg1 : Memref sig .tc .vmem S5000x96 .f32) (harg1 : arg1.IsWhole) (arg2 : Memref sig .tc .vmem S5000x1 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S5000x96 .f32) (harg5 : arg5.IsWhole)
    (x0 : Vec F S5000x96 .f32) (x1 : Vec F S5000x1 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__graph_conv_dense_kernel i arg1 harg1 arg2 harg2 arg3 harg3 arg4 harg4 arg5 harg5) K := by
  simp only [cc1__graph_conv_dense_kernel_eq_skeleton]; unfold cc1__graph_conv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer still at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main (cc2__scale_rows_kernel), at the entry contents `V`: the message scaling before the second gather -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body at any point the current staging buffer of input window 0 holds that window's block: either it was
    fetched for this point, or the index map has not moved since it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Before the body at any point the current staging buffer of input window 1 holds that window's block: either it was
    fetched for this point, or the index map has not moved since it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S5000x96 := Rect.unit (s := S5000x96) ![0, 0] S5000x96.size inb_S5000x96_S5000x96_0_0
abbrev r2_1 : Rect S5000x1 := Rect.unit (s := S5000x1) ![0, 0] S5000x1.size inb_S5000x1_S5000x1_0_0
abbrev r2_2 : Rect S5000x96 := Rect.unit (s := S5000x96) ![0, 0] S5000x96.size inb_S5000x96_S5000x96_0_0

/-- What the body leaves in the output window's staging buffer, from the input blocks: its one whole-block store. -/
def out2_2 (x0 : Vec F S5000x96 .f32) (x1 : Vec F S5000x1 .f32) : Vec F S5000x96 .f32 :=
  View.canon [⟨r2_2, k2_pay1 (View.ld x0 r2_0) (View.ld x1 r2_1)⟩]

/-- The one store is of the whole block, so it covers it. -/
theorem cover2_2 (p0 : Vec F S5000x96 .f32) (y : S5000x96.Idx) :
    ∃ pc ∈ ([⟨r2_2, p0⟩] : List (View.Piece (Elt F) S5000x96 .f32)), y ∈ pc.1.set :=
  View.cover_of_tiled [⟨r2_2, p0⟩] S5000x96.size (by rfl) y

set_option maxHeartbeats 1000000 in
/-- The body on whole staging memrefs — the inputs' at contents `x·`, the output's at anything — runs to a state with the
    inputs' as they were and the output's at `out2_2` of the inputs. -/
theorem sound_kernel2 (c : Dev nD) (E : Set ℕ) (i : grid2.Coords) (arg1 : Memref sig .tc .vmem S5000x96 .f32) (harg1 : arg1.IsWhole) (arg2 : Memref sig .tc .vmem S5000x1 .f32) (harg2 : arg2.IsWhole) (arg3 : Memref sig .tc .vmem S5000x96 .f32) (harg3 : arg3.IsWhole)
    (x0 : Vec F S5000x96 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_rows_kernel i arg1 harg1 arg2 harg2 arg3 harg3) K := by
  simp only [cc2__scale_rows_kernel_eq_skeleton]; unfold cc2__scale_rows_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer still at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main (cc3__graph_conv_dense_kernel), at the entry contents `V`: the second dense layer: rows scaled by the in-degree norm, times the weights, plus the bias -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Before the body at any point the current staging buffer of input window 0 holds that window's block: either it was
    fetched for this point, or the index map has not moved since it was. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 1 holds that window's block: either it was
    fetched for this point, or the index map has not moved since it was. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 2 holds that window's block: either it was
    fetched for this point, or the index map has not moved since it was. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 3 holds that window's block: either it was
    fetched for this point, or the index map has not moved since it was. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S5000x96 := Rect.unit (s := S5000x96) ![0, 0] S5000x96.size inb_S5000x96_S5000x96_0_0
abbrev r3_1 : Rect S5000x1 := Rect.unit (s := S5000x1) ![0, 0] S5000x1.size inb_S5000x1_S5000x1_0_0
abbrev r3_2 : Rect S96x96 := Rect.unit (s := S96x96) ![0, 0] S96x96.size inb_S96x96_S96x96_0_0
abbrev r3_3 : Rect S1x96 := Rect.unit (s := S1x96) ![0, 0] S1x96.size inb_S1x96_S1x96_0_0
abbrev r3_4 : Rect S5000x96 := Rect.unit (s := S5000x96) ![0, 0] S5000x96.size inb_S5000x96_S5000x96_0_0

/-- What the body leaves in the output window's staging buffer, from the input blocks: its one whole-block store. -/
def out3_4 (x0 : Vec F S5000x96 .f32) (x1 : Vec F S5000x1 .f32) (x2 : Vec F S96x96 .f32) (x3 : Vec F S1x96 .f32) : Vec F S5000x96 .f32 :=
  View.canon [⟨r3_4, k3_pay1 (View.ld x0 r3_0) (View.ld x1 r3_1) (View.ld x2 r3_2) (View.ld x3 r3_3)⟩]

/-- The one store is of the whole block, so it covers it. -/
theorem cover3_4 (p0 : Vec F S5000x96 .f32) (y : S5000x96.Idx) :
    ∃ pc ∈ ([⟨r3_4, p0⟩] : List (View.Piece (Elt F) S5000x96 .f32)), y ∈ pc.1.set :=
  View.cover_of_tiled [⟨r3_4, p0⟩] S5000x96.size (by rfl) y

set_option maxHeartbeats 1000000 in
/-- The body on whole staging memrefs — the inputs' at contents `x·`, the output's at anything — runs to a state with the
    inputs' as they were and the output's at `out3_4` of the inputs. -/
theorem sound_kernel3 (c : Dev nD) (E : Set ℕ) (i : grid3.Coords) (arg1 : Memref sig .tc .vmem S5000x96 .f32) (harg1 : arg1.IsWhole) (arg2 : Memref sig .tc .vmem S5000x1 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S5000x96 .f32) (harg5 : arg5.IsWhole)
    (x0 : Vec F S5000x96 .f32) (x1 : Vec F S5000x1 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__graph_conv_dense_kernel i arg1 harg1 arg2 harg2 arg3 harg3 arg4 harg4 arg5 harg5) K := by
  simp only [cc3__graph_conv_dense_kernel_eq_skeleton]; unfold cc3__graph_conv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input's buffer still at its block and the output's at `out3_4` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Body4.lean ====
import proofs.«165250_j58265526337787_1_alg».proof.Proof.Gen.KernelIdeal.Launch
import proofs.«165250_j58265526337787_1_alg».proof.Proof.Gen.KernelIdeal.Skeleton
import proofs.«165250_j58265526337787_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (an unfetched
    window's block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, in closed form over the grid -/

/-- The first conditional's condition (the grid coordinate is 0), from the coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the grid coordinate is 9). -/
abbrev cond4_1 (i : grid4.Coords) : Prop := k4_cond2 i = 1#1
/-- It holds at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Off the last point the output window is idle, and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point it is live. -/
theorem liveAt4_3 : ∀ t : Fin cfg4.N, cond4_1 (grid4.coords t) → cfg4.idle 3 (grid4.coords t) = false := by decide +kernel

/-! ## The scratch accumulator -/

/-- The scratch operand: a whole scoped buffer of the kernel's own, carried from point to point. -/
abbrev scM4 : Memref sig .tc .vmem S1x96 .f32 := Memref.whole cc4_scratch0

/-- The class invariant with the scratch buffer as a memref owned at some contents. -/
theorem PhiA4_eq (c : Dev nD) :
    (Pipeline.ΦA spec4 c : sProp 𝕄)
      = iprop(iprop(iprop((∃ d, owns (c : Thread nD τ) scM4 fullShare d)) ∗ Pipeline.scopedRestBut spec4 c [cc4_scratch0]) ∗ (∃ r, prngReg c r)) := by
  unfold Pipeline.ΦA; rw [scopedRest4_split]; simp only [scM4, owns_whole]; try rfl

theorem zeroOffs4 : (![0, 0] : Fin 2 → Nat) = fun _ => 0 := funext fun a => by fin_cases a <;> rfl

/-- A store through the whole-shape rectangle at zero offsets, last, leaves its payload whatever was stored before. -/
theorem read_writes_cons_whole4 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run, case by case -/

set_option maxHeartbeats 1000000 in
/-- The first point (the first conditional taken, the second not): the scratch row is zeroed, then gains the block's
    column sums; the output's buffer is untouched. -/
theorem run4_A (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : cond4_0 i) (hc1 : ¬cond4_1 i)
    (x0 : Vec F S5000x96 .f32) (x1 : Vec F S96x8 .f32) (x2 : Vec F S1x8 .f32) (xi3 : Vec F S1x8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k4_pay2 (k4_pay1 (F := F)) x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_cons_whole4 _ _ zeroOffs4 _ _ _).trans ?_
  sl_unfold_words
  rw [View.readCov_unit_zero (S := S1x96) _ zeroOffs4]
  simp only [View.readAt_eq_ld, harg1.read_unread, View.ld_unit_zero (S := S5000x96) zeroOffs4]

set_option maxHeartbeats 1000000 in
/-- A middle point (neither conditional taken): the scratch row gains the block's column sums; nothing else changes. -/
theorem run4_B (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : ¬cond4_0 i) (hc1 : ¬cond4_1 i)
    (x0 : Vec F S5000x96 .f32) (x1 : Vec F S96x8 .f32) (x2 : Vec F S1x8 .f32) (xi3 : Vec F S1x8 .f32) (xs : Vec F S1x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k4_pay2 xs x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_cons_whole4 _ _ zeroOffs4 _ _ _).trans ?_
  simp only [View.readAt_eq_ld, harg1.read_unread, harg5.read_unread, View.ld_unit_zero (S := S1x96) zeroOffs4, View.ld_unit_zero (S := S5000x96) zeroOffs4]

set_option maxHeartbeats 1000000 in
/-- The last point (the second conditional taken): the scratch row gains the block's column sums, and the output's
    buffer is stored the readout of the new row. -/
theorem run4_C (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : ¬cond4_0 i) (hc1 : cond4_1 i)
    (x0 : Vec F S5000x96 .f32) (x1 : Vec F S96x8 .f32) (x2 : Vec F S1x8 .f32) (xs : Vec F S1x96 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 (k4_pay2 xs x0) x1 x2) ∗ owns (c : Thread nD τ) arg5 fullShare (k4_pay2 xs x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_cons_whole4 _ _ zeroOffs4 _ _ _).trans ?_
    sl_unfold_words
    rw [View.readCov_unit_zero (S := S1x96) _ zeroOffs4]
    simp only [View.readAt_eq_ld, harg1.read_unread, harg2.read_unread, harg3.read_unread, harg5.read_unread, View.ld_unit_zero (S := S1x96) zeroOffs4, View.ld_unit_zero (S := S5000x96) zeroOffs4, View.ld_unit_zero (S := S96x8) zeroOffs4, View.ld_unit_zero (S := S1x8) zeroOffs4]
  iexists _; isplitr
  swap; · iexact HS
  ipureintro
  refine (read_writes_cons_whole4 _ _ zeroOffs4 _ _ _).trans ?_
  simp only [View.readAt_eq_ld, harg1.read_unread, harg5.read_unread, View.ld_unit_zero (S := S1x96) zeroOffs4, View.ld_unit_zero (S := S5000x96) zeroOffs4]

/-! ## The running column sums -/

/-- What the scratch row holds after point `n`: the zero row plus the column sums of blocks `0 … n`, added in order
    (beyond the grid, the last point's). -/
def acc4 (c : Dev nD) : ℕ → Vec F S1x96 .f32
  | 0 => k4_pay2 (k4_pay1 (F := F)) (iblk4 V c 0 ⟨0, by decide⟩)
  | n + 1 => if h : n + 1 < cfg4.N then k4_pay2 (acc4 c n) (iblk4 V c 0 ⟨n + 1, h⟩) else acc4 c n

theorem acc4_zero (c : Dev nD) : acc4 V c 0 = k4_pay2 (k4_pay1 (F := F)) (iblk4 V c 0 ⟨0, by decide⟩) := rfl

theorem acc4_succ (c : Dev nD) (n : ℕ) (h : n + 1 < cfg4.N) : acc4 V c (n + 1) = k4_pay2 (acc4 V c n) (iblk4 V c 0 ⟨n + 1, h⟩) :=
  dif_pos h

/-- At the first point: the zero row plus the first block's column sums. -/
theorem acc4_first (c : Dev nD) (t : Fin cfg4.N) (hz : t.val = 0) : acc4 V c t.val = k4_pay2 (k4_pay1 (F := F)) (iblk4 V c 0 t) := by
  obtain ⟨n, hn⟩ := t
  obtain rfl : n = 0 := hz
  rfl

/-- At a later point: the point before's row plus this block's column sums. -/
theorem acc4_step (c : Dev nD) (t : Fin cfg4.N) (hz : t.val ≠ 0) : acc4 V c t.val = k4_pay2 (acc4 V c (t.val - 1)) (iblk4 V c 0 t) := by
  obtain ⟨n, hn⟩ := t
  cases n with
  | zero => exact absurd rfl hz
  | succ n => exact acc4_succ V c n hn

/-! ## The invariant -/

/-- The region invariant before position `n`: before the first point the class's (every scoped buffer at anything);
    afterwards the scratch row owned at the running column sums, beside the other scoped buffers and the generator
    register. -/
def Phi4 (c : Dev nD) : ℕ → sProp 𝕄
  | 0 => Pipeline.ΦA spec4 c
  | n + 1 => iprop(iprop(owns (c : Thread nD τ) scM4 fullShare (acc4 V c n) ∗ Pipeline.scopedRestBut spec4 c [cc4_scratch0]) ∗ (∃ r, prngReg c r))

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (acc4 V c n) ∗ Pipeline.scopedRestBut spec4 c [cc4_scratch0]) ∗ (∃ r, prngReg c r)) := rfl

theorem Phi4_pos (c : Dev nD) (n : ℕ) (hz : n ≠ 0) :
    Phi4 V c n = iprop(iprop(owns (c : Thread nD τ) scM4 fullShare (acc4 V c (n - 1)) ∗ Pipeline.scopedRestBut spec4 c [cc4_scratch0]) ∗ (∃ r, prngReg c r)) := by
  cases n with
  | zero => exact absurd rfl hz
  | succ n => rfl

/-! ## The pipeline's proof data -/

/-- The proof data of the pipeline on core `c`: the arrays as the region finds them; after the body each input's
    buffer at its block and the output's at the readout of the running column sums; the invariant `Phi4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val) (iblk4 V c 1 t) (iblk4 V c 2 t)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (acc4 V c t.val) (iblk4 V c 1 t) (iblk4 V c 2 t) := by dsimp only [dat4]

theorem share4 (c : Dev nD) : (dat4 V c).q = fun _ => fullShare := by dsimp only [dat4]
theorem owed4 (c : Dev nD) : (dat4 V c).owed = fun _ => 0 := by dsimp only [dat4]

theorem Phi4_castSucc (c : Dev nD) (t : Fin cfg4.N) : (dat4 V c).Φ t.castSucc = Phi4 V c t.val := by
  dsimp only [dat4]; simp only [Fin.coe_castSucc]

theorem Phi4_at_succ (c : Dev nD) (t : Fin cfg4.N) : (dat4 V c).Φ t.succ = Phi4 V c (t.val + 1) := by
  dsimp only [dat4]; simp only [Fin.val_succ]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the closed forms say which case the point is in; the
    invariant hands the body the scratch row at the running sums up to the point before (at anything, at the first
    point) and takes it back at the sums up to this point; off the last point the output's buffer passes through
    untouched, at the last it is stored the readout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_at_succ, Phi4_succ, Phi4_castSucc]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  rw [show (dat4 V c).leavesExact 2 t = owns (c : Thread nD τ) (st4_2 t) fullShare ((dat4 V c).after 2 t) from by
      unfold Dat.leavesExact; rw [liveAt4_2 t], after4_2]
  have hN : t.val < 10 := lt_of_lt_of_eq t.isLt (show cfg4.N = 10 from N_4)
  by_cases h0 : t.val % 10 = 0
  · have h1 : ¬t.val % 10 = 9 := by omega
    have hz : t.val = 0 := by omega
    have hc0 : cond4_0 (grid4.coords t) := (hcond4_0 t).mpr h0
    have hc1 : ¬cond4_1 (grid4.coords t) := fun h => h1 ((hcond4_1 t).mp h)
    rw [Dat.leavesExact_idle (dat4 V c) 3 t (idleAt4_3 t hc1) (noFlush4_3 t hc1)]
    rw [acc4_first V c t hz, Phi4_zero V c _ hz, PhiA4_eq]
    iintro ⟨⟨⟨HS, Hr⟩, Hg⟩, Ho, ⟨%d0, H0⟩, ⟨%d1, H1⟩, ⟨%d2, H2⟩, ⟨%d3, H3⟩⟩
    iapply (run4_A c Set.univ (grid4.coords t) _ _ _ _ _ _ _ _ _ _ hc0 hc1 (iblk4 V c 0 t) (iblk4 V c 1 t) (iblk4 V c 2 t) ((dat4 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := by omega
    have hc0 : ¬cond4_0 (grid4.coords t) := fun h => h0 ((hcond4_0 t).mp h)
    rw [acc4_step V c t hz, Phi4_pos V c _ hz]
    by_cases h1 : t.val % 10 = 9
    · have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3, acc4_step V c t hz]
      iintro ⟨⟨⟨HS, Hr⟩, Hg⟩, Ho, ⟨%d0, H0⟩, ⟨%d1, H1⟩, ⟨%d2, H2⟩, ⟨%d3, H3⟩⟩
      iapply (run4_C c Set.univ (grid4.coords t) _ _ _ _ _ _ _ _ _ _ hc0 hc1 (iblk4 V c 0 t) (iblk4 V c 1 t) (iblk4 V c 2 t) (acc4 V c (t.val - 1)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond4_1 (grid4.coords t) := fun h => h1 ((hcond4_1 t).mp h)
      rw [Dat.leavesExact_idle (dat4 V c) 3 t (idleAt4_3 t hc1) (noFlush4_3 t hc1)]
      iintro ⟨⟨⟨HS, Hr⟩, Hg⟩, Ho, ⟨%d0, H0⟩, ⟨%d1, H1⟩, ⟨%d2, H2⟩, ⟨%d3, H3⟩⟩
      iapply (run4_B c Set.univ (grid4.coords t) _ _ _ _ _ _ _ _ _ _ hc0 hc1 (iblk4 V c 0 t) (iblk4 V c 1 t) (iblk4 V c 2 t) ((dat4 V c).before 3 t d3) (acc4 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = Phi4 V c 0 from rfl, Phi4_zero V c 0 rfl]
  try exact Idealize.SL.BI.Entails.refl _

/-- After any point but the first the invariant gives the class's back: the scratch row's named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = Phi4 V c t.val from rfl, Phi4_pos V c _ ht, PhiA4_eq]
  iintro ⟨⟨HS, Hr⟩, Hg⟩
  isplitr [Hg]
  · isplitl [HS]
    · iexists _; iexact HS
    iexact Hr
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 10 := N_4; omega)

/-- The proof data holds every array at the full share and owes nothing, in the forms the region's run takes them. -/
theorem share_full4 (c : Dev nD) (w : Fin cfg4.W) : (dat4 V c).share w = fullShare := (dat4 V c).share_full (fun _ => rfl) w
theorem owed_zero4 (c : Dev nD) (t : Fin (cfg4.N + 1)) : (dat4 V c).owed t = 0 := rfl

end Cert.KernelIdeal.Hand

end
-- ==== Proof.Run.lean ====
/-
  The whole run of @main: thirteen segments — eight stretches of host operations and the five tiled regions — from the
  launch to the return. The buffers' contents at each boundary are a fold from the launch memory: a host stretch
  applies its operations; a region leaves each input array as it found it and its output array at what its
  write-backs leave. The run theorem says every weakly fair execution terminates, faults nowhere, and ends with
  every unscoped buffer at the last boundary's contents; the argument arrays, which nothing writes, are then read
  back through the fold to their launch contents.
-/
import proofs.«165250_j58265526337787_1_alg».proof.Proof.Body0123
import proofs.«165250_j58265526337787_1_alg».proof.Proof.Body4
import proofs.«165250_j58265526337787_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- The same read at the TensorCore's references: what region 0 is entered with. -/
abbrev V5 : (c : Dev nD) → (b : Ref sig .tc) → Buf (Elt F) ((c : Thread nD τ).loc b) := fun c b => W5 m c b
/-- At region 0's exit: its arrays at what the pipeline leaves (an input as entered, the output its write-backs folded),
    every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- Region 0 leaves its input window 0's array (`main_arg0`) as it found it. -/
theorem W6_in0 (c : Dev nD) : W6 m c (Proc.devRef .tc main_arg0) = W5 m c (Proc.devRef .tc main_arg0) :=
  (W6_arr m c 0).trans (((dat0 (V5 m) c).arrAt_in 0 rfl _).trans (A_eq0 (V5 m) c 0))
/-- Region 0 leaves its input window 1's array (`main_v13`) as it found it. -/
theorem W6_in1 (c : Dev nD) : W6 m c (Proc.devRef .tc main_v13) = W5 m c (Proc.devRef .tc main_v13) :=
  (W6_arr m c 1).trans (((dat0 (V5 m) c).arrAt_in 1 rfl _).trans (A_eq0 (V5 m) c 1))
/-- After the host stretch `hostOps1`. -/
abbrev W7 : Dev nD → Valuation τ sig (Elt F) := fun c => StableHlo.after hostOps1 (W6 m c)
/-- The same read at the TensorCore's references: what region 1 is entered with. -/
abbrev V7 : (c : Dev nD) → (b : Ref sig .tc) → Buf (Elt F) ((c : Thread nD τ).loc b) := fun c b => W7 m c b
/-- At region 1's exit: its arrays at what the pipeline leaves (an input as entered, the output its write-backs folded),
    every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- Region 1 leaves its input window 0's array (`main_v25`) as it found it. -/
theorem W8_in0 (c : Dev nD) : W8 m c (Proc.devRef .tc main_v25) = W7 m c (Proc.devRef .tc main_v25) :=
  (W8_arr m c 0).trans (((dat1 (V7 m) c).arrAt_in 0 rfl _).trans (A_eq1 (V7 m) c 0))
/-- Region 1 leaves its input window 1's array (`main_v14`) as it found it. -/
theorem W8_in1 (c : Dev nD) : W8 m c (Proc.devRef .tc main_v14) = W7 m c (Proc.devRef .tc main_v14) :=
  (W8_arr m c 1).trans (((dat1 (V7 m) c).arrAt_in 1 rfl _).trans (A_eq1 (V7 m) c 1))
/-- Region 1 leaves its input window 2's array (`main_arg3`) as it found it. -/
theorem W8_in2 (c : Dev nD) : W8 m c (Proc.devRef .tc main_arg3) = W7 m c (Proc.devRef .tc main_arg3) :=
  (W8_arr m c 2).trans (((dat1 (V7 m) c).arrAt_in 2 rfl _).trans (A_eq1 (V7 m) c 2))
/-- Region 1 leaves its input window 3's array (`main_v26`) as it found it. -/
theorem W8_in3 (c : Dev nD) : W8 m c (Proc.devRef .tc main_v26) = W7 m c (Proc.devRef .tc main_v26) :=
  (W8_arr m c 3).trans (((dat1 (V7 m) c).arrAt_in 3 rfl _).trans (A_eq1 (V7 m) c 3))
/-- At region 2's exit: its arrays at what the pipeline leaves (an input as entered, the output its write-backs folded),
    every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- Region 2 leaves its input window 0's array (`main_v27`) as it found it. -/
theorem W9_in0 (c : Dev nD) : W9 m c (Proc.devRef .tc main_v27) = W8 m c (Proc.devRef .tc main_v27) :=
  (W9_arr m c 0).trans (((dat2 (V8 m) c).arrAt_in 0 rfl _).trans (A_eq2 (V8 m) c 0))
/-- Region 2 leaves its input window 1's array (`main_v13`) as it found it. -/
theorem W9_in1 (c : Dev nD) : W9 m c (Proc.devRef .tc main_v13) = W8 m c (Proc.devRef .tc main_v13) :=
  (W9_arr m c 1).trans (((dat2 (V8 m) c).arrAt_in 1 rfl _).trans (A_eq2 (V8 m) c 1))
/-- After the host stretch `hostOps3`. -/
abbrev W10 : Dev nD → Valuation τ sig (Elt F) := fun c => StableHlo.after hostOps3 (W9 m c)
/-- The same read at the TensorCore's references: what region 3 is entered with. -/
abbrev V10 : (c : Dev nD) → (b : Ref sig .tc) → Buf (Elt F) ((c : Thread nD τ).loc b) := fun c b => W10 m c b
/-- At region 3's exit: its arrays at what the pipeline leaves (an input as entered, the output its write-backs folded),
    every other buffer as entered. -/
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- Region 3 leaves its input window 0's array (`main_v38`) as it found it. -/
theorem W11_in0 (c : Dev nD) : W11 m c (Proc.devRef .tc main_v38) = W10 m c (Proc.devRef .tc main_v38) :=
  (W11_arr m c 0).trans (((dat3 (V10 m) c).arrAt_in 0 rfl _).trans (A_eq3 (V10 m) c 0))
/-- Region 3 leaves its input window 1's array (`main_v14`) as it found it. -/
theorem W11_in1 (c : Dev nD) : W11 m c (Proc.devRef .tc main_v14) = W10 m c (Proc.devRef .tc main_v14) :=
  (W11_arr m c 1).trans (((dat3 (V10 m) c).arrAt_in 1 rfl _).trans (A_eq3 (V10 m) c 1))
/-- Region 3 leaves its input window 2's array (`main_arg5`) as it found it. -/
theorem W11_in2 (c : Dev nD) : W11 m c (Proc.devRef .tc main_arg5) = W10 m c (Proc.devRef .tc main_arg5) :=
  (W11_arr m c 2).trans (((dat3 (V10 m) c).arrAt_in 2 rfl _).trans (A_eq3 (V10 m) c 2))
/-- Region 3 leaves its input window 3's array (`main_v39`) as it found it. -/
theorem W11_in3 (c : Dev nD) : W11 m c (Proc.devRef .tc main_v39) = W10 m c (Proc.devRef .tc main_v39) :=
  (W11_arr m c 3).trans (((dat3 (V10 m) c).arrAt_in 3 rfl _).trans (A_eq3 (V10 m) c 3))
/-- After the host stretch `hostOps4`. -/
abbrev W12 : Dev nD → Valuation τ sig (Elt F) := fun c => StableHlo.after hostOps4 (W11 m c)
/-- The same read at the TensorCore's references: what region 4 is entered with. -/
abbrev V12 : (c : Dev nD) → (b : Ref sig .tc) → Buf (Elt F) ((c : Thread nD τ).loc b) := fun c b => W12 m c b
/-- At region 4's exit: its arrays at what the pipeline leaves (an input as entered, the output its write-backs folded),
    every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- Region 4 leaves its input window 0's array (`main_v40`) as it found it. -/
theorem W13_in0 (c : Dev nD) : W13 m c (Proc.devRef .tc main_v40) = W12 m c (Proc.devRef .tc main_v40) :=
  (W13_arr m c 0).trans (((dat4 (V12 m) c).arrAt_in 0 rfl _).trans (A_eq4 (V12 m) c 0))
/-- Region 4 leaves its input window 1's array (`main_v41`) as it found it. -/
theorem W13_in1 (c : Dev nD) : W13 m c (Proc.devRef .tc main_v41) = W12 m c (Proc.devRef .tc main_v41) :=
  (W13_arr m c 1).trans (((dat4 (V12 m) c).arrAt_in 1 rfl _).trans (A_eq4 (V12 m) c 1))
/-- Region 4 leaves its input window 2's array (`main_v42`) as it found it. -/
theorem W13_in2 (c : Dev nD) : W13 m c (Proc.devRef .tc main_v42) = W12 m c (Proc.devRef .tc main_v42) :=
  (W13_arr m c 2).trans (((dat4 (V12 m) c).arrAt_in 2 rfl _).trans (A_eq4 (V12 m) c 2))
/-- The stretch `hostOps0` leaves every buffer it does not write as it was. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- The stretch `hostOps0_1` leaves every buffer it does not write as it was. -/
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
/-- The stretch `hostOps0_2` leaves every buffer it does not write as it was. -/
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
/-- The stretch `hostOps0_3` leaves every buffer it does not write as it was. -/
theorem W4_keep (c : Dev nD) (r : Ref sig .tc) (h : r ∉ hostOps0_3_W) : W4 m c (Proc.devRef .tc r) = W3 m c (Proc.devRef .tc r) :=
  StableHlo.after_of_writes_sub hostOps0_3 _ hostOps0_3_writes h
/-- The stretch `hostOps0_4` leaves every buffer it does not write as it was. -/
theorem W5_keep (c : Dev nD) (r : Ref sig .tc) (h : r ∉ hostOps0_4_W) : W5 m c (Proc.devRef .tc r) = W4 m c (Proc.devRef .tc r) :=
  StableHlo.after_of_writes_sub hostOps0_4 _ hostOps0_4_writes h
/-- The stretch `hostOps1` leaves every buffer it does not write as it was. -/
theorem W7_keep (c : Dev nD) (r : Ref sig .tc) (h : r ∉ hostOps1_W) : W7 m c (Proc.devRef .tc r) = W6 m c (Proc.devRef .tc r) :=
  StableHlo.after_of_writes_sub hostOps1 _ hostOps1_writes h
/-- The stretch `hostOps3` leaves every buffer it does not write as it was. -/
theorem W10_keep (c : Dev nD) (r : Ref sig .tc) (h : r ∉ hostOps3_W) : W10 m c (Proc.devRef .tc r) = W9 m c (Proc.devRef .tc r) :=
  StableHlo.after_of_writes_sub hostOps3 _ hostOps3_writes h
/-- The stretch `hostOps4` leaves every buffer it does not write as it was. -/
theorem W12_keep (c : Dev nD) (r : Ref sig .tc) (h : r ∉ hostOps4_W) : W12 m c (Proc.devRef .tc r) = W11 m c (Proc.devRef .tc r) :=
  StableHlo.after_of_writes_sub hostOps4 _ hostOps4_writes h

/-! ## The argument arrays end as launched -/

theorem W13_main_arg0 (c : Dev nD) : W13 m c (Proc.devRef .tc main_arg0) = m ((c : Thread nD τ).loc main_arg0) :=
  ((W13_of_ne m c main_arg0 (by decide)).trans <| (W12_keep m c main_arg0 (by decide)).trans <| (W11_of_ne m c main_arg0 (by decide)).trans <| (W10_keep m c main_arg0 (by decide)).trans <| (W9_of_ne m c main_arg0 (by decide)).trans <| (W8_of_ne m c main_arg0 (by decide)).trans <| (W7_keep m c main_arg0 (by decide)).trans <| (W6_in0 m c).trans <| (W5_keep m c main_arg0 (by decide)).trans <| (W4_keep m c main_arg0 (by decide)).trans <| (W3_keep m c main_arg0 (by decide)).trans <| (W2_keep m c main_arg0 (by decide)).trans <| (W1_keep m c main_arg0 (by decide))).trans rfl
theorem W13_main_arg1 (c : Dev nD) : W13 m c (Proc.devRef .tc main_arg1) = m ((c : Thread nD τ).loc main_arg1) :=
  ((W13_of_ne m c main_arg1 (by decide)).trans <| (W12_keep m c main_arg1 (by decide)).trans <| (W11_of_ne m c main_arg1 (by decide)).trans <| (W10_keep m c main_arg1 (by decide)).trans <| (W9_of_ne m c main_arg1 (by decide)).trans <| (W8_of_ne m c main_arg1 (by decide)).trans <| (W7_keep m c main_arg1 (by decide)).trans <| (W6_of_ne m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide))).trans rfl
theorem W13_main_arg2 (c : Dev nD) : W13 m c (Proc.devRef .tc main_arg2) = m ((c : Thread nD τ).loc main_arg2) :=
  ((W13_of_ne m c main_arg2 (by decide)).trans <| (W12_keep m c main_arg2 (by decide)).trans <| (W11_of_ne m c main_arg2 (by decide)).trans <| (W10_keep m c main_arg2 (by decide)).trans <| (W9_of_ne m c main_arg2 (by decide)).trans <| (W8_of_ne m c main_arg2 (by decide)).trans <| (W7_keep m c main_arg2 (by decide)).trans <| (W6_of_ne m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide))).trans rfl
theorem W13_main_arg3 (c : Dev nD) : W13 m c (Proc.devRef .tc main_arg3) = m ((c : Thread nD τ).loc main_arg3) :=
  ((W13_of_ne m c main_arg3 (by decide)).trans <| (W12_keep m c main_arg3 (by decide)).trans <| (W11_of_ne m c main_arg3 (by decide)).trans <| (W10_keep m c main_arg3 (by decide)).trans <| (W9_of_ne m c main_arg3 (by decide)).trans <| (W8_in2 m c).trans <| (W7_keep m c main_arg3 (by decide)).trans <| (W6_of_ne m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide))).trans rfl
theorem W13_main_arg4 (c : Dev nD) : W13 m c (Proc.devRef .tc main_arg4) = m ((c : Thread nD τ).loc main_arg4) :=
  ((W13_of_ne m c main_arg4 (by decide)).trans <| (W12_keep m c main_arg4 (by decide)).trans <| (W11_of_ne m c main_arg4 (by decide)).trans <| (W10_keep m c main_arg4 (by decide)).trans <| (W9_of_ne m c main_arg4 (by decide)).trans <| (W8_of_ne m c main_arg4 (by decide)).trans <| (W7_keep m c main_arg4 (by decide)).trans <| (W6_of_ne m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide))).trans rfl
theorem W13_main_arg5 (c : Dev nD) : W13 m c (Proc.devRef .tc main_arg5) = m ((c : Thread nD τ).loc main_arg5) :=
  ((W13_of_ne m c main_arg5 (by decide)).trans <| (W12_keep m c main_arg5 (by decide)).trans <| (W11_in2 m c).trans <| (W10_keep m c main_arg5 (by decide)).trans <| (W9_of_ne m c main_arg5 (by decide)).trans <| (W8_of_ne m c main_arg5 (by decide)).trans <| (W7_keep m c main_arg5 (by decide)).trans <| (W6_of_ne m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide))).trans rfl
theorem W13_main_arg6 (c : Dev nD) : W13 m c (Proc.devRef .tc main_arg6) = m ((c : Thread nD τ).loc main_arg6) :=
  ((W13_of_ne m c main_arg6 (by decide)).trans <| (W12_keep m c main_arg6 (by decide)).trans <| (W11_of_ne m c main_arg6 (by decide)).trans <| (W10_keep m c main_arg6 (by decide)).trans <| (W9_of_ne m c main_arg6 (by decide)).trans <| (W8_of_ne m c main_arg6 (by decide)).trans <| (W7_keep m c main_arg6 (by decide)).trans <| (W6_of_ne m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide))).trans rfl
theorem W13_main_arg7 (c : Dev nD) : W13 m c (Proc.devRef .tc main_arg7) = m ((c : Thread nD τ).loc main_arg7) :=
  ((W13_of_ne m c main_arg7 (by decide)).trans <| (W12_keep m c main_arg7 (by decide)).trans <| (W11_of_ne m c main_arg7 (by decide)).trans <| (W10_keep m c main_arg7 (by decide)).trans <| (W9_of_ne m c main_arg7 (by decide)).trans <| (W8_of_ne m c main_arg7 (by decide)).trans <| (W7_keep m c main_arg7 (by decide)).trans <| (W6_of_ne m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide))).trans rfl
theorem W13_main_arg8 (c : Dev nD) : W13 m c (Proc.devRef .tc main_arg8) = m ((c : Thread nD τ).loc main_arg8) :=
  ((W13_of_ne m c main_arg8 (by decide)).trans <| (W12_keep m c main_arg8 (by decide)).trans <| (W11_of_ne m c main_arg8 (by decide)).trans <| (W10_keep m c main_arg8 (by decide)).trans <| (W9_of_ne m c main_arg8 (by decide)).trans <| (W8_of_ne m c main_arg8 (by decide)).trans <| (W7_keep m c main_arg8 (by decide)).trans <| (W6_of_ne m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide))).trans rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V8 m) c
  | ⟨3, _⟩ => fun c => dat3 (V10 m) c
  | ⟨4, _⟩ => fun c => dat4 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 as a segment: entered with every unscoped buffer at `W5`, left with them at `W6`. Its windows' arrays are
    split out of the unscoped buffers on entry and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W7`, left with them at `W8`. Its windows' arrays are
    split out of the unscoped buffers on entry and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W8`, left with them at `W9`. Its windows' arrays are
    split out of the unscoped buffers on entry and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W10`, left with them at `W11`. Its windows' arrays are
    split out of the unscoped buffers on entry and put back at their exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W12`, left with them at `W13`. Its windows' arrays are
    split out of the unscoped buffers on entry and put back at their exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V12 m) c)
    unfold Pipeline.ΦA
    iintro ⟨Hp, -, Hr⟩
    isplitl [Hr]; · iexact Hr
    iexact Hp
  hout c := by
    rw [Pipeline.ownSems0_none]
    refine (hout4 (V12 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .region (reg2 m),
    .host (hseg hostOps3 hostOps3_sub hostOps3_fresh (W9 m)),
    .region (reg3 m),
    .host (hseg hostOps4 hostOps4_sub hostOps4_fresh (W11 m)),
    .region (reg4 m) ]

variable (ρ : Dev nD → PrngReg)

set_option backward.isDefEq.respectTransparency.types false in
/-- THE RUN: from any memory with zero counters, every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c)⟩) (run_all m ρ)

end Cert.KernelIdeal.Hand

end
-- ==== Proof.KBody0123.lean ====
/-
  The four row-tiled regions of the program's @main whose bodies are one load of each input block, one pure
  computation, one store of the whole output block — two "scale the rows" regions and two dense layers. For each,
  at the buffer contents `V` the region is entered with: the block a window shows at a grid point, what the body
  leaves in the output block as a function of the input blocks, the body's run, the pipeline's proof data and the
  obligation "at every grid point the body, given the windows' current blocks, returns them with the output block
  at that function". Nothing here depends on which float instance the program is read at.
-/
import proofs.«165250_j58265526337787_1_alg».proof.Proof.Gen.Kernel.Launch
import proofs.«165250_j58265526337787_1_alg».proof.Proof.Gen.Kernel.Skeleton
import proofs.«165250_j58265526337787_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main (cc0__scale_rows_kernel), at the entry contents `V`: the message scaling before the first gather: each feature row times its node's out-degree norm -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body at any point the current staging buffer of input window 0 holds that window's block: either it was
    fetched for this point, or the index map has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Before the body at any point the current staging buffer of input window 1 holds that window's block: either it was
    fetched for this point, or the index map has not moved since it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S5000x96 := Rect.unit (s := S5000x96) ![0, 0] S5000x96.size inb_S5000x96_S5000x96_0_0
abbrev r0_1 : Rect S5000x1 := Rect.unit (s := S5000x1) ![0, 0] S5000x1.size inb_S5000x1_S5000x1_0_0
abbrev r0_2 : Rect S5000x96 := Rect.unit (s := S5000x96) ![0, 0] S5000x96.size inb_S5000x96_S5000x96_0_0

/-- What the body leaves in the output window's staging buffer, from the input blocks: its one whole-block store. -/
def out0_2 (x0 : Vec F S5000x96 .f32) (x1 : Vec F S5000x1 .f32) : Vec F S5000x96 .f32 :=
  View.canon [⟨r0_2, k0_pay1 (View.ld x0 r0_0) (View.ld x1 r0_1)⟩]

/-- The one store is of the whole block, so it covers it. -/
theorem cover0_2 (p0 : Vec F S5000x96 .f32) (y : S5000x96.Idx) :
    ∃ pc ∈ ([⟨r0_2, p0⟩] : List (View.Piece (Elt F) S5000x96 .f32)), y ∈ pc.1.set :=
  View.cover_of_tiled [⟨r0_2, p0⟩] S5000x96.size (by rfl) y

set_option maxHeartbeats 1000000 in
/-- The body on whole staging memrefs — the inputs' at contents `x·`, the output's at anything — runs to a state with the
    inputs' as they were and the output's at `out0_2` of the inputs. -/
theorem sound_kernel0 (c : Dev nD) (E : Set ℕ) (i : grid0.Coords) (arg1 : Memref sig .tc .vmem S5000x96 .f32) (harg1 : arg1.IsWhole) (arg2 : Memref sig .tc .vmem S5000x1 .f32) (harg2 : arg2.IsWhole) (arg3 : Memref sig .tc .vmem S5000x96 .f32) (harg3 : arg3.IsWhole)
    (x0 : Vec F S5000x96 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_rows_kernel i arg1 harg1 arg2 harg2 arg3 harg3) K := by
  simp only [cc0__scale_rows_kernel_eq_skeleton]; unfold cc0__scale_rows_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer still at its block and the output's at `out0_2` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main (cc1__graph_conv_dense_kernel), at the entry contents `V`: the first dense layer: rows scaled by the in-degree norm, times the weights, plus the bias, clamped at zero -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Before the body at any point the current staging buffer of input window 0 holds that window's block: either it was
    fetched for this point, or the index map has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 1 holds that window's block: either it was
    fetched for this point, or the index map has not moved since it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 2 holds that window's block: either it was
    fetched for this point, or the index map has not moved since it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Before the body at any point the current staging buffer of input window 3 holds that window's block: either it was
    fetched for this point, or the index map has not moved since it was. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S5000x96 := Rect.unit (s := S5000x96) ![0, 0] S5000x96.size inb_S5000x96_S5000x96_0_0
abbrev r1_1 : Rect S5000x1 := Rect.unit (s := S5000x1) ![0, 0] S5000x1.size inb_S5000x1_S5000x1_0_0
abbrev r1_2 : Rect S96x96 := Rect.unit (s := S96x96) ![0, 0] S96x96.size inb_S96x96_S96x96_0_0
abbrev r1_3 : Rect S1x96 := Rect.unit (s := S1x96) ![0, 0] S1x96.size inb_S1x96_S1x96_0_0
abbrev r1_4 : Rect S5000x96 := Rect.unit (s := S5000x96) ![0, 0] S5000x96.size inb_S5000x96_S5000x96_0_0

/-- What the body leaves in the output window's staging buffer, from the input blocks: its one whole-block store. -/
def out1_4 (x0 : Vec F S5000x96 .f32) (x1 : Vec F S5000x1 .f32) (x2 : Vec F S96x96 .f32) (x3 : Vec F S1x96 .f32) : Vec F S5000x96 .f32 :=
  View.canon [⟨r1_4, k1_pay1 (View.ld x0 r1_0) (View.ld x1 r1_1) (View.ld x2 r1_2) (View.ld x3 r1_3)⟩]

/-- The one store is of the whole block, so it covers it. -/
theorem cover1_4 (p0 : Vec F S5000x96 .f32) (y : S5000x96.Idx) :
    ∃ pc ∈ ([⟨r1_4, p0⟩] : List (View.Piece (Elt F) S5000x96 .f32)), y ∈ pc.1.set :=
  View.cover_of_tiled [⟨r1_4, p0⟩] S5000x96.size (by rfl) y

set_option maxHeartbeats 1000000 in
/-- The body on whole staging memrefs — the inputs' at contents `x·`, the output's at anything — runs to a state with the
    inputs' as they were and the output's at `out1_4` of the inputs. -/
theorem sound_kernel1 (c : Dev nD) (E : Set ℕ) (i : grid1.Coords) (arg1 : Memref sig .tc .vmem S5000x96 .f32) (harg1 : arg1.IsWhole) (arg2 : Memref sig .tc .vmem S5000x1 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S5000x96 .f32) (harg5 : arg5.IsWhole)
    (x0 : Vec F S5000x96 .f32) (x1 : Vec F S5000x1 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__graph_conv_dense_kernel i arg1 harg1 arg2 harg2 arg3 harg3 arg4 harg4 arg5 harg5) K := by
  simp only [cc1__graph_conv_dense_kernel_eq_skeleton]; unfold cc1__graph_conv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer still at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main (cc2__scale_rows_kernel), at the entry contents `V`: the message scaling before the second gather -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body at any point the current staging buffer of input window 0 holds that window's block: either it was
    fetched for this point, or the index map has not moved since it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Before the body at any point the current staging buffer of input window 1 holds that window's block: either it was
    fetched for this point, or the index map has not moved since it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S5000x96 := Rect.unit (s := S5000x96) ![0, 0] S5000x96.size inb_S5000x96_S5000x96_0_0
abbrev r2_1 : Rect S5000x1 := Rect.unit (s := S5000x1) ![0, 0] S5000x1.size inb_S5000x1_S5000x1_0_0
abbrev r2_2 : Rect S5000x96 := Rect.unit (s := S5000x96) ![0, 0] S5000x96.size inb_S5000x96_S5000x96_0_0

/-- What the body leaves in the output window's staging buffer, from the input blocks: its one whole-block store. -/
def out2_2 (x0 : Vec F S5000x96 .f32) (x1 : Vec F S5000x1 .f32) : Vec F S5000x96 .f32 :=
  View.canon [⟨r2_2, k2_pay1 (View.ld x0 r2_0) (View.ld x1 r2_1)⟩]

/-- The one store is of the whole block, so it covers it. -/
theorem cover2_2 (p0 : Vec F S5000x96 .f32) (y : S5000x96.Idx) :
    ∃ pc ∈ ([⟨r2_2, p0⟩] : List (View.Piece (Elt F) S5000x96 .f32)), y ∈ pc.1.set :=
  View.cover_of_tiled [⟨r2_2, p0⟩] S5000x96.size (by rfl) y

set_option maxHeartbeats 1000000 in
/-- The body on whole staging memrefs — the inputs' at contents `x·`, the output's at anything — runs to a state with the
    inputs' as they were and the output's at `out2_2` of the inputs. -/
theorem sound_kernel2 (c : Dev nD) (E : Set ℕ) (i : grid2.Coords) (arg1 : Memref sig .tc .vmem S5000x96 .f32) (harg1 : arg1.IsWhole) (arg2 : Memref sig .tc .vmem S5000x1 .f32) (harg2 : arg2.IsWhole) (arg3 : Memref sig .tc .vmem S5000x96 .f32) (harg3 : arg3.IsWhole)
    (x0 : Vec F S5000x96 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_rows_kernel i arg1 harg1 arg2 harg2 arg3 harg3) K := by
  simp only [cc2__scale_rows_kernel_eq_skeleton]; unfold cc2__scale_rows_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer still at its block and the output's at `out2_2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main (cc3__graph_conv_dense_kernel), at the entry contents `V`: the second dense layer: rows scaled by the in-degree norm, times the weights, plus the bias -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Before the body at any point the current staging buffer of input window 0 holds that window's block: either it was
    fetched for this point, or the index map has not moved since it was. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 1 holds that window's block: either it was
    fetched for this point, or the index map has not moved since it was. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 2 holds that window's block: either it was
    fetched for this point, or the index map has not moved since it was. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Before the body at any point the current staging buffer of input window 3 holds that window's block: either it was
    fetched for this point, or the index map has not moved since it was. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S5000x96 := Rect.unit (s := S5000x96) ![0, 0] S5000x96.size inb_S5000x96_S5000x96_0_0
abbrev r3_1 : Rect S5000x1 := Rect.unit (s := S5000x1) ![0, 0] S5000x1.size inb_S5000x1_S5000x1_0_0
abbrev r3_2 : Rect S96x96 := Rect.unit (s := S96x96) ![0, 0] S96x96.size inb_S96x96_S96x96_0_0
abbrev r3_3 : Rect S1x96 := Rect.unit (s := S1x96) ![0, 0] S1x96.size inb_S1x96_S1x96_0_0
abbrev r3_4 : Rect S5000x96 := Rect.unit (s := S5000x96) ![0, 0] S5000x96.size inb_S5000x96_S5000x96_0_0

/-- What the body leaves in the output window's staging buffer, from the input blocks: its one whole-block store. -/
def out3_4 (x0 : Vec F S5000x96 .f32) (x1 : Vec F S5000x1 .f32) (x2 : Vec F S96x96 .f32) (x3 : Vec F S1x96 .f32) : Vec F S5000x96 .f32 :=
  View.canon [⟨r3_4, k3_pay1 (View.ld x0 r3_0) (View.ld x1 r3_1) (View.ld x2 r3_2) (View.ld x3 r3_3)⟩]

/-- The one store is of the whole block, so it covers it. -/
theorem cover3_4 (p0 : Vec F S5000x96 .f32) (y : S5000x96.Idx) :
    ∃ pc ∈ ([⟨r3_4, p0⟩] : List (View.Piece (Elt F) S5000x96 .f32)), y ∈ pc.1.set :=
  View.cover_of_tiled [⟨r3_4, p0⟩] S5000x96.size (by rfl) y

set_option maxHeartbeats 1000000 in
/-- The body on whole staging memrefs — the inputs' at contents `x·`, the output's at anything — runs to a state with the
    inputs' as they were and the output's at `out3_4` of the inputs. -/
theorem sound_kernel3 (c : Dev nD) (E : Set ℕ) (i : grid3.Coords) (arg1 : Memref sig .tc .vmem S5000x96 .f32) (harg1 : arg1.IsWhole) (arg2 : Memref sig .tc .vmem S5000x1 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S5000x96 .f32) (harg5 : arg5.IsWhole)
    (x0 : Vec F S5000x96 .f32) (x1 : Vec F S5000x1 .f32) (x2 : Vec F S96x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__graph_conv_dense_kernel i arg1 harg1 arg2 harg2 arg3 harg3 arg4 harg4 arg5 harg5) K := by
  simp only [cc3__graph_conv_dense_kernel_eq_skeleton]; unfold cc3__graph_conv_dense_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input's buffer still at its block and the output's at `out3_4` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBody4.lean ====
import proofs.«165250_j58265526337787_1_alg».proof.Proof.Gen.Kernel.Launch
import proofs.«165250_j58265526337787_1_alg».proof.Proof.Gen.Kernel.Skeleton
import proofs.«165250_j58265526337787_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (an unfetched
    window's block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, in closed form over the grid -/

/-- The first conditional's condition (the grid coordinate is 0), from the coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the grid coordinate is 9). -/
abbrev cond4_1 (i : grid4.Coords) : Prop := k4_cond2 i = 1#1
/-- It holds at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Off the last point the output window is idle, and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point it is live. -/
theorem liveAt4_3 : ∀ t : Fin cfg4.N, cond4_1 (grid4.coords t) → cfg4.idle 3 (grid4.coords t) = false := by decide +kernel

/-! ## The scratch accumulator -/

/-- The scratch operand: a whole scoped buffer of the kernel's own, carried from point to point. -/
abbrev scM4 : Memref sig .tc .vmem S1x96 .f32 := Memref.whole cc4_scratch0

/-- The class invariant with the scratch buffer as a memref owned at some contents. -/
theorem PhiA4_eq (c : Dev nD) :
    (Pipeline.ΦA spec4 c : sProp 𝕄)
      = iprop(iprop(iprop((∃ d, owns (c : Thread nD τ) scM4 fullShare d)) ∗ Pipeline.scopedRestBut spec4 c [cc4_scratch0]) ∗ (∃ r, prngReg c r)) := by
  unfold Pipeline.ΦA; rw [scopedRest4_split]; simp only [scM4, owns_whole]; try rfl

theorem zeroOffs4 : (![0, 0] : Fin 2 → Nat) = fun _ => 0 := funext fun a => by fin_cases a <;> rfl

/-- A store through the whole-shape rectangle at zero offsets, last, leaves its payload whatever was stored before. -/
theorem read_writes_cons_whole4 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run, case by case -/

set_option maxHeartbeats 1000000 in
/-- The first point (the first conditional taken, the second not): the scratch row is zeroed, then gains the block's
    column sums; the output's buffer is untouched. -/
theorem run4_A (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : cond4_0 i) (hc1 : ¬cond4_1 i)
    (x0 : Vec F S5000x96 .f32) (x1 : Vec F S96x8 .f32) (x2 : Vec F S1x8 .f32) (xi3 : Vec F S1x8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k4_pay2 (k4_pay1 (F := F)) x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_cons_whole4 _ _ zeroOffs4 _ _ _).trans ?_
  sl_unfold_words
  rw [View.readCov_unit_zero (S := S1x96) _ zeroOffs4]
  simp only [View.readAt_eq_ld, harg1.read_unread, View.ld_unit_zero (S := S5000x96) zeroOffs4]

set_option maxHeartbeats 1000000 in
/-- A middle point (neither conditional taken): the scratch row gains the block's column sums; nothing else changes. -/
theorem run4_B (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : ¬cond4_0 i) (hc1 : ¬cond4_1 i)
    (x0 : Vec F S5000x96 .f32) (x1 : Vec F S96x8 .f32) (x2 : Vec F S1x8 .f32) (xi3 : Vec F S1x8 .f32) (xs : Vec F S1x96 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k4_pay2 xs x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_cons_whole4 _ _ zeroOffs4 _ _ _).trans ?_
  simp only [View.readAt_eq_ld, harg1.read_unread, harg5.read_unread, View.ld_unit_zero (S := S1x96) zeroOffs4, View.ld_unit_zero (S := S5000x96) zeroOffs4]

set_option maxHeartbeats 1000000 in
/-- The last point (the second conditional taken): the scratch row gains the block's column sums, and the output's
    buffer is stored the readout of the new row. -/
theorem run4_C (c : Dev nD) (E : Set ℕ) (i : grid4.Coords)
    (arg1 : Memref sig .tc .vmem S5000x96 .f32) (harg1 : arg1.IsWhole) (arg2 : Memref sig .tc .vmem S96x8 .f32) (harg2 : arg2.IsWhole)
    (arg3 : Memref sig .tc .vmem S1x8 .f32) (harg3 : arg3.IsWhole) (arg4 : Memref sig .tc .vmem S1x8 .f32) (harg4 : arg4.IsWhole)
    (arg5 : Memref sig .tc .vmem S1x96 .f32) (harg5 : arg5.IsWhole) (hc0 : ¬cond4_0 i) (hc1 : cond4_1 i)
    (x0 : Vec F S5000x96 .f32) (x1 : Vec F S96x8 .f32) (x2 : Vec F S1x8 .f32) (xs : Vec F S1x96 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 (k4_pay2 xs x0) x1 x2) ∗ owns (c : Thread nD τ) arg5 fullShare (k4_pay2 xs x0)) -∗ K ⟨⟩))
      ⊢ wp frame (wpE (defs₀ (F := F)) Variants.none c none) E (cc4__pool_readout_kernel i arg1 harg1 arg2 harg2 arg3 harg3 arg4 harg4 arg5 harg5) K := by
  rw [cc4__pool_readout_kernel_eq_skeleton]; unfold cc4__pool_readout_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (read_writes_cons_whole4 _ _ zeroOffs4 _ _ _).trans ?_
    sl_unfold_words
    rw [View.readCov_unit_zero (S := S1x96) _ zeroOffs4]
    simp only [View.readAt_eq_ld, harg1.read_unread, harg2.read_unread, harg3.read_unread, harg5.read_unread, View.ld_unit_zero (S := S1x96) zeroOffs4, View.ld_unit_zero (S := S5000x96) zeroOffs4, View.ld_unit_zero (S := S96x8) zeroOffs4, View.ld_unit_zero (S := S1x8) zeroOffs4]
  iexists _; isplitr
  swap; · iexact HS
  ipureintro
  refine (read_writes_cons_whole4 _ _ zeroOffs4 _ _ _).trans ?_
  simp only [View.readAt_eq_ld, harg1.read_unread, harg5.read_unread, View.ld_unit_zero (S := S1x96) zeroOffs4, View.ld_unit_zero (S := S5000x96) zeroOffs4]

/-! ## The running column sums -/

/-- What the scratch row holds after point `n`: the zero row plus the column sums of blocks `0 … n`, added in order
    (beyond the grid, the last point's). -/
def acc4 (c : Dev nD) : ℕ → Vec F S1x96 .f32
  | 0 => k4_pay2 (k4_pay1 (F := F)) (iblk4 V c 0 ⟨0, by decide⟩)
  | n + 1 => if h : n + 1 < cfg4.N then k4_pay2 (acc4 c n) (iblk4 V c 0 ⟨n + 1, h⟩) else acc4 c n

theorem acc4_zero (c : Dev nD) : acc4 V c 0 = k4_pay2 (k4_pay1 (F := F)) (iblk4 V c 0 ⟨0, by decide⟩) := rfl

theorem acc4_succ (c : Dev nD) (n : ℕ) (h : n + 1 < cfg4.N) : acc4 V c (n + 1) = k4_pay2 (acc4 V c n) (iblk4 V c 0 ⟨n + 1, h⟩) :=
  dif_pos h

/-- At the first point: the zero row plus the first block's column sums. -/
theorem acc4_first (c : Dev nD) (t : Fin cfg4.N) (hz : t.val = 0) : acc4 V c t.val = k4_pay2 (k4_pay1 (F := F)) (iblk4 V c 0 t) := by
  obtain ⟨n, hn⟩ := t
  obtain rfl : n = 0 := hz
  rfl

/-- At a later point: the point before's row plus this block's column sums. -/
theorem acc4_step (c : Dev nD) (t : Fin cfg4.N) (hz : t.val ≠ 0) : acc4 V c t.val = k4_pay2 (acc4 V c (t.val - 1)) (iblk4 V c 0 t) := by
  obtain ⟨n, hn⟩ := t
  cases n with
  | zero => exact absurd rfl hz
  | succ n => exact acc4_succ V c n hn

/-! ## The invariant -/

/-- The region invariant before position `n`: before the first point the class's (every scoped buffer at anything);
    afterwards the scratch row owned at the running column sums, beside the other scoped buffers and the generator
    register. -/
def Phi4 (c : Dev nD) : ℕ → sProp 𝕄
  | 0 => Pipeline.ΦA spec4 c
  | n + 1 => iprop(iprop(owns (c : Thread nD τ) scM4 fullShare (acc4 V c n) ∗ Pipeline.scopedRestBut spec4 c [cc4_scratch0]) ∗ (∃ r, prngReg c r))

theorem Phi4_zero (c : Dev nD) (n : ℕ) (hz : n = 0) : Phi4 V c n = Pipeline.ΦA spec4 c := by
  subst hz; rfl

theorem Phi4_succ (c : Dev nD) (n : ℕ) :
    Phi4 V c (n + 1) = iprop(iprop(owns (c : Thread nD τ) scM4 fullShare (acc4 V c n) ∗ Pipeline.scopedRestBut spec4 c [cc4_scratch0]) ∗ (∃ r, prngReg c r)) := rfl

theorem Phi4_pos (c : Dev nD) (n : ℕ) (hz : n ≠ 0) :
    Phi4 V c n = iprop(iprop(owns (c : Thread nD τ) scM4 fullShare (acc4 V c (n - 1)) ∗ Pipeline.scopedRestBut spec4 c [cc4_scratch0]) ∗ (∃ r, prngReg c r)) := by
  cases n with
  | zero => exact absurd rfl hz
  | succ n => rfl

/-! ## The pipeline's proof data -/

/-- The proof data of the pipeline on core `c`: the arrays as the region finds them; after the body each input's
    buffer at its block and the output's at the readout of the running column sums; the invariant `Phi4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val) (iblk4 V c 1 t) (iblk4 V c 2 t)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (acc4 V c t.val) (iblk4 V c 1 t) (iblk4 V c 2 t) := by dsimp only [dat4]

theorem share4 (c : Dev nD) : (dat4 V c).q = fun _ => fullShare := by dsimp only [dat4]
theorem owed4 (c : Dev nD) : (dat4 V c).owed = fun _ => 0 := by dsimp only [dat4]

theorem Phi4_castSucc (c : Dev nD) (t : Fin cfg4.N) : (dat4 V c).Φ t.castSucc = Phi4 V c t.val := by
  dsimp only [dat4]; simp only [Fin.coe_castSucc]

theorem Phi4_at_succ (c : Dev nD) (t : Fin cfg4.N) : (dat4 V c).Φ t.succ = Phi4 V c (t.val + 1) := by
  dsimp only [dat4]; simp only [Fin.val_succ]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the closed forms say which case the point is in; the
    invariant hands the body the scratch row at the running sums up to the point before (at anything, at the first
    point) and takes it back at the sums up to this point; off the last point the output's buffer passes through
    untouched, at the last it is stored the readout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_at_succ, Phi4_succ, Phi4_castSucc]
  rw [show (dat4 V c).leavesExact 0 t = owns (c : Thread nD τ) (st4_0 t) fullShare ((dat4 V c).after 0 t) from by
      unfold Dat.leavesExact; rw [liveAt4_0 t], after4_0]
  rw [show (dat4 V c).leavesExact 1 t = owns (c : Thread nD τ) (st4_1 t) fullShare ((dat4 V c).after 1 t) from by
      unfold Dat.leavesExact; rw [liveAt4_1 t], after4_1]
  rw [show (dat4 V c).leavesExact 2 t = owns (c : Thread nD τ) (st4_2 t) fullShare ((dat4 V c).after 2 t) from by
      unfold Dat.leavesExact; rw [liveAt4_2 t], after4_2]
  have hN : t.val < 10 := lt_of_lt_of_eq t.isLt (show cfg4.N = 10 from N_4)
  by_cases h0 : t.val % 10 = 0
  · have h1 : ¬t.val % 10 = 9 := by omega
    have hz : t.val = 0 := by omega
    have hc0 : cond4_0 (grid4.coords t) := (hcond4_0 t).mpr h0
    have hc1 : ¬cond4_1 (grid4.coords t) := fun h => h1 ((hcond4_1 t).mp h)
    rw [Dat.leavesExact_idle (dat4 V c) 3 t (idleAt4_3 t hc1) (noFlush4_3 t hc1)]
    rw [acc4_first V c t hz, Phi4_zero V c _ hz, PhiA4_eq]
    iintro ⟨⟨⟨HS, Hr⟩, Hg⟩, Ho, ⟨%d0, H0⟩, ⟨%d1, H1⟩, ⟨%d2, H2⟩, ⟨%d3, H3⟩⟩
    iapply (run4_A c Set.univ (grid4.coords t) _ _ _ _ _ _ _ _ _ _ hc0 hc1 (iblk4 V c 0 t) (iblk4 V c 1 t) (iblk4 V c 2 t) ((dat4 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := by omega
    have hc0 : ¬cond4_0 (grid4.coords t) := fun h => h0 ((hcond4_0 t).mp h)
    rw [acc4_step V c t hz, Phi4_pos V c _ hz]
    by_cases h1 : t.val % 10 = 9
    · have hc1 : cond4_1 (grid4.coords t) := (hcond4_1 t).mpr h1
      rw [show (dat4 V c).leavesExact 3 t = owns (c : Thread nD τ) (st4_3 t) fullShare ((dat4 V c).after 3 t) from by
        unfold Dat.leavesExact; rw [liveAt4_3 t hc1], after4_3, acc4_step V c t hz]
      iintro ⟨⟨⟨HS, Hr⟩, Hg⟩, Ho, ⟨%d0, H0⟩, ⟨%d1, H1⟩, ⟨%d2, H2⟩, ⟨%d3, H3⟩⟩
      iapply (run4_C c Set.univ (grid4.coords t) _ _ _ _ _ _ _ _ _ _ hc0 hc1 (iblk4 V c 0 t) (iblk4 V c 1 t) (iblk4 V c 2 t) (acc4 V c (t.val - 1)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond4_1 (grid4.coords t) := fun h => h1 ((hcond4_1 t).mp h)
      rw [Dat.leavesExact_idle (dat4 V c) 3 t (idleAt4_3 t hc1) (noFlush4_3 t hc1)]
      iintro ⟨⟨⟨HS, Hr⟩, Hg⟩, Ho, ⟨%d0, H0⟩, ⟨%d1, H1⟩, ⟨%d2, H2⟩, ⟨%d3, H3⟩⟩
      iapply (run4_B c Set.univ (grid4.coords t) _ _ _ _ _ _ _ _ _ _ hc0 hc1 (iblk4 V c 0 t) (iblk4 V c 1 t) (iblk4 V c 2 t) ((dat4 V c).before 3 t d3) (acc4 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = Phi4 V c 0 from rfl, Phi4_zero V c 0 rfl]
  try exact Idealize.SL.BI.Entails.refl _

/-- After any point but the first the invariant gives the class's back: the scratch row's named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = Phi4 V c t.val from rfl, Phi4_pos V c _ ht, PhiA4_eq]
  iintro ⟨⟨HS, Hr⟩, Hg⟩
  isplitr [Hg]
  · isplitl [HS]
    · iexists _; iexact HS
    iexact Hr
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 10 := N_4; omega)

/-- The proof data holds every array at the full share and owes nothing, in the forms the region's run takes them. -/
theorem share_full4 (c : Dev nD) (w : Fin cfg4.W) : (dat4 V c).share w = fullShare := (dat4 V c).share_full (fun _ => rfl) w
theorem owed_zero4 (c : Dev nD) (t : Fin (cfg4.N + 1)) : (dat4 V c).owed t = 0 := rfl

end Cert.Kernel.Hand

end
-- ==== Proof.KRun.lean ====
/-
  The whole run of @main: thirteen segments — eight stretches of host operations and the five tiled regions — from the
  launch to the return. The buffers' contents at each boundary are a fold from the launch memory: a host stretch
  applies its operations; a region leaves each input array as it found it and its output array at what its
  write-backs leave. The run theorem says every weakly fair execution terminates, faults nowhere, and ends with
  every unscoped buffer at the last boundary's contents; the argument arrays, which nothing writes, are then read
  back through the fold to their launch contents.
-/
import proofs.«165250_j58265526337787_1_alg».proof.Proof.KBody0123
import proofs.«165250_j58265526337787_1_alg».proof.Proof.KBody4
import proofs.«165250_j58265526337787_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After the host stretch `hostOps0_3`. -/
abbrev W4 : Dev nD → Valuation τ sig (Elt F) := fun c => StableHlo.after hostOps0_3 (W3 m c)
/-- After the host stretch `hostOps0_4`. -/
abbrev W5 : Dev nD → Valuation τ sig (Elt F) := fun c => StableHlo.after hostOps0_4 (W4 m c)
/-- The same read at the TensorCore's references: what region 0 is entered with. -/
abbrev V5 : (c : Dev nD) → (b : Ref sig .tc) → Buf (Elt F) ((c : Thread nD τ).loc b) := fun c b => W5 m c b
/-- At region 0's exit: its arrays at what the pipeline leaves (an input as entered, the output its write-backs folded),
    every other buffer as entered. -/
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev V6 : (c : Dev nD) → (b : Ref sig .tc) → Buf (Elt F) ((c : Thread nD τ).loc b) := fun c b => W6 m c b
theorem hF0 (c : Dev nD) (w : Fin cfg0.W) : (dat0 (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
/-- Region 0 leaves its input window 0's array (`main_arg0`) as it found it. -/
theorem W6_in0 (c : Dev nD) : W6 m c (Proc.devRef .tc main_arg0) = W5 m c (Proc.devRef .tc main_arg0) :=
  (W6_arr m c 0).trans (((dat0 (V5 m) c).arrAt_in 0 rfl _).trans (A_eq0 (V5 m) c 0))
/-- Region 0 leaves its input window 1's array (`main_v13`) as it found it. -/
theorem W6_in1 (c : Dev nD) : W6 m c (Proc.devRef .tc main_v13) = W5 m c (Proc.devRef .tc main_v13) :=
  (W6_arr m c 1).trans (((dat0 (V5 m) c).arrAt_in 1 rfl _).trans (A_eq0 (V5 m) c 1))
/-- After the host stretch `hostOps1`. -/
abbrev W7 : Dev nD → Valuation τ sig (Elt F) := fun c => StableHlo.after hostOps1 (W6 m c)
/-- The same read at the TensorCore's references: what region 1 is entered with. -/
abbrev V7 : (c : Dev nD) → (b : Ref sig .tc) → Buf (Elt F) ((c : Thread nD τ).loc b) := fun c b => W7 m c b
/-- At region 1's exit: its arrays at what the pipeline leaves (an input as entered, the output its write-backs folded),
    every other buffer as entered. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
/-- Region 1 leaves its input window 0's array (`main_v25`) as it found it. -/
theorem W8_in0 (c : Dev nD) : W8 m c (Proc.devRef .tc main_v25) = W7 m c (Proc.devRef .tc main_v25) :=
  (W8_arr m c 0).trans (((dat1 (V7 m) c).arrAt_in 0 rfl _).trans (A_eq1 (V7 m) c 0))
/-- Region 1 leaves its input window 1's array (`main_v14`) as it found it. -/
theorem W8_in1 (c : Dev nD) : W8 m c (Proc.devRef .tc main_v14) = W7 m c (Proc.devRef .tc main_v14) :=
  (W8_arr m c 1).trans (((dat1 (V7 m) c).arrAt_in 1 rfl _).trans (A_eq1 (V7 m) c 1))
/-- Region 1 leaves its input window 2's array (`main_arg3`) as it found it. -/
theorem W8_in2 (c : Dev nD) : W8 m c (Proc.devRef .tc main_arg3) = W7 m c (Proc.devRef .tc main_arg3) :=
  (W8_arr m c 2).trans (((dat1 (V7 m) c).arrAt_in 2 rfl _).trans (A_eq1 (V7 m) c 2))
/-- Region 1 leaves its input window 3's array (`main_v26`) as it found it. -/
theorem W8_in3 (c : Dev nD) : W8 m c (Proc.devRef .tc main_v26) = W7 m c (Proc.devRef .tc main_v26) :=
  (W8_arr m c 3).trans (((dat1 (V7 m) c).arrAt_in 3 rfl _).trans (A_eq1 (V7 m) c 3))
/-- At region 2's exit: its arrays at what the pipeline leaves (an input as entered, the output its write-backs folded),
    every other buffer as entered. -/
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- Region 2 leaves its input window 0's array (`main_v27`) as it found it. -/
theorem W9_in0 (c : Dev nD) : W9 m c (Proc.devRef .tc main_v27) = W8 m c (Proc.devRef .tc main_v27) :=
  (W9_arr m c 0).trans (((dat2 (V8 m) c).arrAt_in 0 rfl _).trans (A_eq2 (V8 m) c 0))
/-- Region 2 leaves its input window 1's array (`main_v13`) as it found it. -/
theorem W9_in1 (c : Dev nD) : W9 m c (Proc.devRef .tc main_v13) = W8 m c (Proc.devRef .tc main_v13) :=
  (W9_arr m c 1).trans (((dat2 (V8 m) c).arrAt_in 1 rfl _).trans (A_eq2 (V8 m) c 1))
/-- After the host stretch `hostOps3`. -/
abbrev W10 : Dev nD → Valuation τ sig (Elt F) := fun c => StableHlo.after hostOps3 (W9 m c)
/-- The same read at the TensorCore's references: what region 3 is entered with. -/
abbrev V10 : (c : Dev nD) → (b : Ref sig .tc) → Buf (Elt F) ((c : Thread nD τ).loc b) := fun c b => W10 m c b
/-- At region 3's exit: its arrays at what the pipeline leaves (an input as entered, the output its write-backs folded),
    every other buffer as entered. -/
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- Region 3 leaves its input window 0's array (`main_v38`) as it found it. -/
theorem W11_in0 (c : Dev nD) : W11 m c (Proc.devRef .tc main_v38) = W10 m c (Proc.devRef .tc main_v38) :=
  (W11_arr m c 0).trans (((dat3 (V10 m) c).arrAt_in 0 rfl _).trans (A_eq3 (V10 m) c 0))
/-- Region 3 leaves its input window 1's array (`main_v14`) as it found it. -/
theorem W11_in1 (c : Dev nD) : W11 m c (Proc.devRef .tc main_v14) = W10 m c (Proc.devRef .tc main_v14) :=
  (W11_arr m c 1).trans (((dat3 (V10 m) c).arrAt_in 1 rfl _).trans (A_eq3 (V10 m) c 1))
/-- Region 3 leaves its input window 2's array (`main_arg5`) as it found it. -/
theorem W11_in2 (c : Dev nD) : W11 m c (Proc.devRef .tc main_arg5) = W10 m c (Proc.devRef .tc main_arg5) :=
  (W11_arr m c 2).trans (((dat3 (V10 m) c).arrAt_in 2 rfl _).trans (A_eq3 (V10 m) c 2))
/-- Region 3 leaves its input window 3's array (`main_v39`) as it found it. -/
theorem W11_in3 (c : Dev nD) : W11 m c (Proc.devRef .tc main_v39) = W10 m c (Proc.devRef .tc main_v39) :=
  (W11_arr m c 3).trans (((dat3 (V10 m) c).arrAt_in 3 rfl _).trans (A_eq3 (V10 m) c 3))
/-- After the host stretch `hostOps4`. -/
abbrev W12 : Dev nD → Valuation τ sig (Elt F) := fun c => StableHlo.after hostOps4 (W11 m c)
/-- The same read at the TensorCore's references: what region 4 is entered with. -/
abbrev V12 : (c : Dev nD) → (b : Ref sig .tc) → Buf (Elt F) ((c : Thread nD τ).loc b) := fun c b => W12 m c b
/-- At region 4's exit: its arrays at what the pipeline leaves (an input as entered, the output its write-backs folded),
    every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- Region 4 leaves its input window 0's array (`main_v40`) as it found it. -/
theorem W13_in0 (c : Dev nD) : W13 m c (Proc.devRef .tc main_v40) = W12 m c (Proc.devRef .tc main_v40) :=
  (W13_arr m c 0).trans (((dat4 (V12 m) c).arrAt_in 0 rfl _).trans (A_eq4 (V12 m) c 0))
/-- Region 4 leaves its input window 1's array (`main_v41`) as it found it. -/
theorem W13_in1 (c : Dev nD) : W13 m c (Proc.devRef .tc main_v41) = W12 m c (Proc.devRef .tc main_v41) :=
  (W13_arr m c 1).trans (((dat4 (V12 m) c).arrAt_in 1 rfl _).trans (A_eq4 (V12 m) c 1))
/-- Region 4 leaves its input window 2's array (`main_v42`) as it found it. -/
theorem W13_in2 (c : Dev nD) : W13 m c (Proc.devRef .tc main_v42) = W12 m c (Proc.devRef .tc main_v42) :=
  (W13_arr m c 2).trans (((dat4 (V12 m) c).arrAt_in 2 rfl _).trans (A_eq4 (V12 m) c 2))
/-- The stretch `hostOps0` leaves every buffer it does not write as it was. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- The stretch `hostOps0_1` leaves every buffer it does not write as it was. -/
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
/-- The stretch `hostOps0_2` leaves every buffer it does not write as it was. -/
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
/-- The stretch `hostOps0_3` leaves every buffer it does not write as it was. -/
theorem W4_keep (c : Dev nD) (r : Ref sig .tc) (h : r ∉ hostOps0_3_W) : W4 m c (Proc.devRef .tc r) = W3 m c (Proc.devRef .tc r) :=
  StableHlo.after_of_writes_sub hostOps0_3 _ hostOps0_3_writes h
/-- The stretch `hostOps0_4` leaves every buffer it does not write as it was. -/
theorem W5_keep (c : Dev nD) (r : Ref sig .tc) (h : r ∉ hostOps0_4_W) : W5 m c (Proc.devRef .tc r) = W4 m c (Proc.devRef .tc r) :=
  StableHlo.after_of_writes_sub hostOps0_4 _ hostOps0_4_writes h
/-- The stretch `hostOps1` leaves every buffer it does not write as it was. -/
theorem W7_keep (c : Dev nD) (r : Ref sig .tc) (h : r ∉ hostOps1_W) : W7 m c (Proc.devRef .tc r) = W6 m c (Proc.devRef .tc r) :=
  StableHlo.after_of_writes_sub hostOps1 _ hostOps1_writes h
/-- The stretch `hostOps3` leaves every buffer it does not write as it was. -/
theorem W10_keep (c : Dev nD) (r : Ref sig .tc) (h : r ∉ hostOps3_W) : W10 m c (Proc.devRef .tc r) = W9 m c (Proc.devRef .tc r) :=
  StableHlo.after_of_writes_sub hostOps3 _ hostOps3_writes h
/-- The stretch `hostOps4` leaves every buffer it does not write as it was. -/
theorem W12_keep (c : Dev nD) (r : Ref sig .tc) (h : r ∉ hostOps4_W) : W12 m c (Proc.devRef .tc r) = W11 m c (Proc.devRef .tc r) :=
  StableHlo.after_of_writes_sub hostOps4 _ hostOps4_writes h

/-! ## The argument arrays end as launched -/

theorem W13_main_arg0 (c : Dev nD) : W13 m c (Proc.devRef .tc main_arg0) = m ((c : Thread nD τ).loc main_arg0) :=
  ((W13_of_ne m c main_arg0 (by decide)).trans <| (W12_keep m c main_arg0 (by decide)).trans <| (W11_of_ne m c main_arg0 (by decide)).trans <| (W10_keep m c main_arg0 (by decide)).trans <| (W9_of_ne m c main_arg0 (by decide)).trans <| (W8_of_ne m c main_arg0 (by decide)).trans <| (W7_keep m c main_arg0 (by decide)).trans <| (W6_in0 m c).trans <| (W5_keep m c main_arg0 (by decide)).trans <| (W4_keep m c main_arg0 (by decide)).trans <| (W3_keep m c main_arg0 (by decide)).trans <| (W2_keep m c main_arg0 (by decide)).trans <| (W1_keep m c main_arg0 (by decide))).trans rfl
theorem W13_main_arg1 (c : Dev nD) : W13 m c (Proc.devRef .tc main_arg1) = m ((c : Thread nD τ).loc main_arg1) :=
  ((W13_of_ne m c main_arg1 (by decide)).trans <| (W12_keep m c main_arg1 (by decide)).trans <| (W11_of_ne m c main_arg1 (by decide)).trans <| (W10_keep m c main_arg1 (by decide)).trans <| (W9_of_ne m c main_arg1 (by decide)).trans <| (W8_of_ne m c main_arg1 (by decide)).trans <| (W7_keep m c main_arg1 (by decide)).trans <| (W6_of_ne m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide))).trans rfl
theorem W13_main_arg2 (c : Dev nD) : W13 m c (Proc.devRef .tc main_arg2) = m ((c : Thread nD τ).loc main_arg2) :=
  ((W13_of_ne m c main_arg2 (by decide)).trans <| (W12_keep m c main_arg2 (by decide)).trans <| (W11_of_ne m c main_arg2 (by decide)).trans <| (W10_keep m c main_arg2 (by decide)).trans <| (W9_of_ne m c main_arg2 (by decide)).trans <| (W8_of_ne m c main_arg2 (by decide)).trans <| (W7_keep m c main_arg2 (by decide)).trans <| (W6_of_ne m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide))).trans rfl
theorem W13_main_arg3 (c : Dev nD) : W13 m c (Proc.devRef .tc main_arg3) = m ((c : Thread nD τ).loc main_arg3) :=
  ((W13_of_ne m c main_arg3 (by decide)).trans <| (W12_keep m c main_arg3 (by decide)).trans <| (W11_of_ne m c main_arg3 (by decide)).trans <| (W10_keep m c main_arg3 (by decide)).trans <| (W9_of_ne m c main_arg3 (by decide)).trans <| (W8_in2 m c).trans <| (W7_keep m c main_arg3 (by decide)).trans <| (W6_of_ne m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide))).trans rfl
theorem W13_main_arg4 (c : Dev nD) : W13 m c (Proc.devRef .tc main_arg4) = m ((c : Thread nD τ).loc main_arg4) :=
  ((W13_of_ne m c main_arg4 (by decide)).trans <| (W12_keep m c main_arg4 (by decide)).trans <| (W11_of_ne m c main_arg4 (by decide)).trans <| (W10_keep m c main_arg4 (by decide)).trans <| (W9_of_ne m c main_arg4 (by decide)).trans <| (W8_of_ne m c main_arg4 (by decide)).trans <| (W7_keep m c main_arg4 (by decide)).trans <| (W6_of_ne m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide))).trans rfl
theorem W13_main_arg5 (c : Dev nD) : W13 m c (Proc.devRef .tc main_arg5) = m ((c : Thread nD τ).loc main_arg5) :=
  ((W13_of_ne m c main_arg5 (by decide)).trans <| (W12_keep m c main_arg5 (by decide)).trans <| (W11_in2 m c).trans <| (W10_keep m c main_arg5 (by decide)).trans <| (W9_of_ne m c main_arg5 (by decide)).trans <| (W8_of_ne m c main_arg5 (by decide)).trans <| (W7_keep m c main_arg5 (by decide)).trans <| (W6_of_ne m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide))).trans rfl
theorem W13_main_arg6 (c : Dev nD) : W13 m c (Proc.devRef .tc main_arg6) = m ((c : Thread nD τ).loc main_arg6) :=
  ((W13_of_ne m c main_arg6 (by decide)).trans <| (W12_keep m c main_arg6 (by decide)).trans <| (W11_of_ne m c main_arg6 (by decide)).trans <| (W10_keep m c main_arg6 (by decide)).trans <| (W9_of_ne m c main_arg6 (by decide)).trans <| (W8_of_ne m c main_arg6 (by decide)).trans <| (W7_keep m c main_arg6 (by decide)).trans <| (W6_of_ne m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide))).trans rfl
theorem W13_main_arg7 (c : Dev nD) : W13 m c (Proc.devRef .tc main_arg7) = m ((c : Thread nD τ).loc main_arg7) :=
  ((W13_of_ne m c main_arg7 (by decide)).trans <| (W12_keep m c main_arg7 (by decide)).trans <| (W11_of_ne m c main_arg7 (by decide)).trans <| (W10_keep m c main_arg7 (by decide)).trans <| (W9_of_ne m c main_arg7 (by decide)).trans <| (W8_of_ne m c main_arg7 (by decide)).trans <| (W7_keep m c main_arg7 (by decide)).trans <| (W6_of_ne m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide))).trans rfl
theorem W13_main_arg8 (c : Dev nD) : W13 m c (Proc.devRef .tc main_arg8) = m ((c : Thread nD τ).loc main_arg8) :=
  ((W13_of_ne m c main_arg8 (by decide)).trans <| (W12_keep m c main_arg8 (by decide)).trans <| (W11_of_ne m c main_arg8 (by decide)).trans <| (W10_keep m c main_arg8 (by decide)).trans <| (W9_of_ne m c main_arg8 (by decide)).trans <| (W8_of_ne m c main_arg8 (by decide)).trans <| (W7_keep m c main_arg8 (by decide)).trans <| (W6_of_ne m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide))).trans rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V5 m) c
  | ⟨1, _⟩ => fun c => dat1 (V7 m) c
  | ⟨2, _⟩ => fun c => dat2 (V8 m) c
  | ⟨3, _⟩ => fun c => dat3 (V10 m) c
  | ⟨4, _⟩ => fun c => dat4 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 as a segment: entered with every unscoped buffer at `W5`, left with them at `W6`. Its windows' arrays are
    split out of the unscoped buffers on entry and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W7`, left with them at `W8`. Its windows' arrays are
    split out of the unscoped buffers on entry and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W8`, left with them at `W9`. Its windows' arrays are
    split out of the unscoped buffers on entry and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W10`, left with them at `W11`. Its windows' arrays are
    split out of the unscoped buffers on entry and put back at their exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `W12`, left with them at `W13`. Its windows' arrays are
    split out of the unscoped buffers on entry and put back at their exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V12 m) c)
    unfold Pipeline.ΦA
    iintro ⟨Hp, -, Hr⟩
    isplitl [Hr]; · iexact Hr
    iexact Hp
  hout c := by
    rw [Pipeline.ownSems0_none]
    refine (hout4 (V12 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .region (reg2 m),
    .host (hseg hostOps3 hostOps3_sub hostOps3_fresh (W9 m)),
    .region (reg3 m),
    .host (hseg hostOps4 hostOps4_sub hostOps4_fresh (W11 m)),
    .region (reg4 m) ]

variable (ρ : Dev nD → PrngReg)

set_option backward.isDefEq.respectTransparency.types false in
/-- THE RUN: from any memory with zero counters, every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c)⟩) (run_all m ρ)

end Cert.Kernel.Hand

end
-- ==== Proof.HostRel.lean ====
/-
  The host stretches of the idealized kernel's @main — the StableHLO lines between its regions — computed from an
  arbitrary valuation of its buffers and stated against the reference program's stages. The degree norms are the
  same operations in both programs; the kernel reshapes a vector to a column (or a row) where the reference
  broadcasts it, which is the same array entry by entry; the gather followed by the scatter-add is the same term.
-/
import proofs.«165250_j58265526337787_1_alg».proof.Proof.Gen.KernelIdeal.Launch
import proofs.«165250_j58265526337787_1_alg».proof.Proof.Gen.ReferenceIdeal.Read
import Idealize.ShloMosaic.Lib.StableHlo.Run
import Idealize.ShloMosaic.Lib.Pipeline.Value
import Idealize.ShloMosaic.Lib.ValueLayout

noncomputable section

namespace Cert.KernelIdeal.HostRel

open Idealize.ShloMosaic Idealize.ShloMosaic.TcCoe Idealize.ShloMosaic.StableHlo Cert.KernelIdeal Cert.KernelIdeal.Gen

variable {F : FTy → Type} [FloatOps F] [Named F]

open Idealize.ShloMosaic.ValueIdx in
/-- A vector of length n reshaped to a column [n, 1] is the vector broadcast along axis 0: entry (i, 0) of either is entry i. -/
theorem col_reshape_eq_bcast {α : Type} {n : Nat} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x hc = broadcastInDim ⟨2, ![n, 1]⟩ ![0] hb x := by
  funext j
  have hj1 : (j 1).val = 0 := by have := (j 1).isLt; simp at this; omega
  have hj0 : (j 0).val < n := (j 0).isLt
  rw [shapeCast_apply x hc j (ix1 (⟨(j 0).val, hj0⟩ : Fin n)) (by
        rw [Shape.rowMajor_val_two, Shape.rowMajor_val_one]
        show (j 0).val = (j 0).val * 1 + (j 1).val
        omega),
      broadcastInDim_apply _ hb x j (ix1 (⟨(j 0).val, hj0⟩ : Fin n)) (fun a => match a with
        | ⟨0, _⟩ => by
          show (j 0).val = if n = 1 then 0 else (j 0).val
          split
          · omega
          · rfl)]

open Idealize.ShloMosaic.ValueIdx in
/-- A vector of length n reshaped to a row [1, n] is the vector broadcast along axis 1: entry (0, i) of either is entry i. -/
theorem row_reshape_eq_bcast {α : Type} {n : Nat} (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ ![1] hb x := by
  funext j
  have hj0 : (j 0).val = 0 := by have := (j 0).isLt; simp at this; omega
  have hj1 : (j 1).val < n := (j 1).isLt
  rw [shapeCast_apply x hc j (ix1 (⟨(j 1).val, hj1⟩ : Fin n)) (by
        rw [Shape.rowMajor_val_two, Shape.rowMajor_val_one]
        show (j 1).val = (j 0).val * n + (j 1).val
        rw [hj0]; omega),
      broadcastInDim_apply _ hb x j (ix1 (⟨(j 1).val, hj1⟩ : Fin n)) (fun a => match a with
        | ⟨0, _⟩ => by
          show (j 1).val = if n = 1 then 0 else (j 1).val
          split
          · omega
          · rfl)]

variable (Wk : Valuation τ sig (Elt F))

/-- The same transpose. -/
theorem host4_v41 : StableHlo.after hostOps4 Wk (Proc.devRef .tc main_v41) = Cert.ReferenceIdeal.Read.val_main_v58 (F := F) (Wk (Proc.devRef .tc main_arg7)) := by
  show StableHlo.after hostOps4 Wk (Proc.devRef .tc main_v41) = _
  after_results_simp
  rfl

/-- The bias [8] reshaped to a row against the bias broadcast to a row. -/
theorem host4_v42 : StableHlo.after hostOps4 Wk (Proc.devRef .tc main_v42) = Cert.ReferenceIdeal.Read.val_main_v60 (F := F) (Wk (Proc.devRef .tc main_arg8)) := by
  show StableHlo.after hostOps4 Wk (Proc.devRef .tc main_v42) = _
  after_results_simp
  exact row_reshape_eq_bcast (n := 8) _ _ _

/-- The gather of the rows of Y at the source indices x1 (a negative index wrapped by 50000) followed by the
    scatter-add of those rows into a zero array at the destination indices x2. -/
def gs (Y : (⟨S50000x96, .f32⟩ : BufTy).Contents (Elt F)) (x1 x2 : (⟨S800000, .i32⟩ : BufTy).Contents (Elt F)) : (⟨S50000x96, .f32⟩ : BufTy).Contents (Elt F) :=
  Host.scatterAdd Cert.ReferenceIdeal.scatter_S50000x96_S800000x1_S800000x96_1_0_0_1 (Cert.ReferenceIdeal.Read.val_main_v23 (F := F)) (Cert.ReferenceIdeal.Read.val_main_v24 (F := F) x2)
    (Host.gather Cert.ReferenceIdeal.gather_S50000x96_S800000x1_S800000x96_1_0_n_n_0_1_196 Y (Cert.ReferenceIdeal.Read.val_main_v21 (F := F) x1))

/-- The reference's first aggregation is the gather-scatter of its scaled input. -/
theorem gs_ref25 (x0 : (⟨S50000x96, .f32⟩ : BufTy).Contents (Elt F)) (x1 x2 : (⟨S800000, .i32⟩ : BufTy).Contents (Elt F)) :
    Cert.ReferenceIdeal.Read.val_main_v25 (F := F) x0 x1 x2 = gs (Cert.ReferenceIdeal.Read.val_main_v15 (F := F) x0 x1) x1 x2 := rfl

/-- The reference's second aggregation is the gather-scatter of its scaled hidden layer: its index stages are the
    first aggregation's, term for term. -/
theorem gs_ref46 (x0 : (⟨S50000x96, .f32⟩ : BufTy).Contents (Elt F)) (x1 x2 : (⟨S800000, .i32⟩ : BufTy).Contents (Elt F))
    (x3 : (⟨S96x96, .f32⟩ : BufTy).Contents (Elt F)) (x4 : (⟨S96, .f32⟩ : BufTy).Contents (Elt F)) :
    Cert.ReferenceIdeal.Read.val_main_v46 (F := F) x0 x1 x2 x3 x4 = gs (Cert.ReferenceIdeal.Read.val_main_v36 (F := F) x0 x1 x2 x3 x4) x1 x2 := rfl

set_option maxHeartbeats 2000000 in
/-- The kernel's first aggregation stretch is the gather-scatter of the buffer region 0 wrote. -/
theorem host1_v25 : StableHlo.after hostOps1 Wk (Proc.devRef .tc main_v25) = gs (Wk (Proc.devRef .tc main_v15)) (Wk (Proc.devRef .tc main_arg1)) (Wk (Proc.devRef .tc main_arg2)) := by
  show StableHlo.after hostOps1 Wk (Proc.devRef .tc main_v25) = _
  after_results_simp
  rfl

set_option maxHeartbeats 2000000 in
/-- The first bias [96] reshaped to a row against the bias broadcast to a row. -/
theorem host1_v26 : StableHlo.after hostOps1 Wk (Proc.devRef .tc main_v26) = Cert.ReferenceIdeal.Read.val_main_v30 (F := F) (Wk (Proc.devRef .tc main_arg4)) := by
  show StableHlo.after hostOps1 Wk (Proc.devRef .tc main_v26) = _
  after_results_simp
  exact row_reshape_eq_bcast (n := 96) _ _ _

set_option maxHeartbeats 2000000 in
/-- The kernel's second aggregation stretch is the gather-scatter of the buffer region 2 wrote. -/
theorem host3_v38 : StableHlo.after hostOps3 Wk (Proc.devRef .tc main_v38) = gs (Wk (Proc.devRef .tc main_v28)) (Wk (Proc.devRef .tc main_arg1)) (Wk (Proc.devRef .tc main_arg2)) := by
  show StableHlo.after hostOps3 Wk (Proc.devRef .tc main_v38) = _
  after_results_simp
  rfl

set_option maxHeartbeats 2000000 in
/-- The second bias [96] reshaped to a row against the bias broadcast to a row. -/
theorem host3_v39 : StableHlo.after hostOps3 Wk (Proc.devRef .tc main_v39) = Cert.ReferenceIdeal.Read.val_main_v51 (F := F) (Wk (Proc.devRef .tc main_arg6)) := by
  show StableHlo.after hostOps3 Wk (Proc.devRef .tc main_v39) = _
  after_results_simp
  exact row_reshape_eq_bcast (n := 96) _ _ _

/-- The buffers after the five stretches before region 0: the two degree counts, their clamps at one (two calls of
    the clamp function), the inverse square roots, and the two norms as columns. -/
def pre5 : Valuation τ sig (Elt F) :=
  StableHlo.after hostOps0_4 (StableHlo.after hostOps0_3 (StableHlo.after hostOps0_2 (StableHlo.after hostOps0_1 (StableHlo.after hostOps0 Wk))))

set_option maxHeartbeats 4000000 in
/-- The source-degree norm as a column: the norm vector is the same operations in both programs, and the kernel's
    reshape of it to a column is the reference's broadcast of it. -/
theorem pre5_v13 : pre5 Wk (Proc.devRef .tc main_v13) = Cert.ReferenceIdeal.Read.val_main_v13 (F := F) (Wk (Proc.devRef .tc main_arg1)) := by
  show StableHlo.after hostOps0_4 (StableHlo.after hostOps0_3 (StableHlo.after hostOps0_2 (StableHlo.after hostOps0_1 (StableHlo.after hostOps0 Wk)))) (Proc.devRef .tc main_v13) = _
  after_results_simp
  refine (col_reshape_eq_bcast (n := 50000) _ _ Cert.ReferenceIdeal.Gen.bcast_S50000_S50000x1_0).trans ?_
  rfl

set_option maxHeartbeats 4000000 in
/-- The destination-degree norm as a column. -/
theorem pre5_v14 : pre5 Wk (Proc.devRef .tc main_v14) = Cert.ReferenceIdeal.Read.val_main_v26 (F := F) (Wk (Proc.devRef .tc main_arg2)) := by
  show StableHlo.after hostOps0_4 (StableHlo.after hostOps0_3 (StableHlo.after hostOps0_2 (StableHlo.after hostOps0_1 (StableHlo.after hostOps0 Wk)))) (Proc.devRef .tc main_v14) = _
  after_results_simp
  refine (col_reshape_eq_bcast (n := 50000) _ _ Cert.ReferenceIdeal.Gen.bcast_S50000_S50000x1_0).trans ?_
  rfl

end Cert.KernelIdeal.HostRel

end
-- ==== Proof.Spec.lean ====
/-
  The mathematics both programs compute, as functions of arrays of extended reals, generic in the number of rows
  so that one 5000-row block and the whole 50000-row array are two instances of the same function.

  A graph-convolution layer is, row by row, "scale the row by the node's degree norm, multiply by the weight
  matrix, add the bias (and clamp at zero)"; the message scaling before the gather is "scale the row by the
  node's norm"; the readout is "average the rows, multiply by the readout matrix, add the bias". Every one of
  these depends, at row r, only on row r of its row-indexed operands: that is why the kernel may tile the rows.
-/
import Idealize.ShloMosaic.PureOps.Ideal
import Idealize.ShloMosaic.Lib.ValueIdx

noncomputable section

open scoped BigOperators

namespace Cert.GcnSpec

open Idealize.ShloMosaic Idealize.ShloMosaic.ValueIdx

/-- An M × N array of extended reals. -/
abbrev Mat (M N : Nat) : Type := (⟨2, ![M, N]⟩ : Shape).Idx → EReal

/-- Row r of X scaled by the r-th entry of the column n. -/
def scale {M : Nat} (X : Mat M 96) (n : Mat M 1) : Mat M 96 :=
  fun j => X j * n (ix2 (j 0) (0 : Fin 1))

/-- The dense layer without the clamp: entry (r, q) is the sum over k of (X(r,k) · n(r)) · W(k,q), plus b(q). -/
def dense {M : Nat} (X : Mat M 96) (n : Mat M 1) (W : Mat 96 96) (b : Mat 1 96) : Mat M 96 :=
  fun j => (∑ k : Fin 96, (X (ix2 (j 0) k) * n (ix2 (j 0) (0 : Fin 1))) * W (ix2 k (j 1))) + b (ix2 (0 : Fin 1) (j 1))

/-- The dense layer clamped below at zero. -/
def denseRelu {M : Nat} (X : Mat M 96) (n : Mat M 1) (W : Mat 96 96) (b : Mat 1 96) : Mat M 96 :=
  fun j => max (dense X n W b j) 0

/-- The column sums of an M × 96 array. -/
def colsum {M : Nat} (H : Mat M 96) : Fin 96 → EReal := fun k => ∑ r : Fin M, H (ix2 r k)

/-- The readout from the column sums s: entry (0, q) is the sum over k of (s(k) · 1/50000) · Wt(k,q), plus br(q). -/
def readout (s : Fin 96 → EReal) (Wt : Mat 96 8) (br : Mat 1 8) : Mat 1 8 :=
  fun j => (∑ k : Fin 96, (s k * ((1 / 50000 : ℝ) : EReal)) * Wt (ix2 k (j 1))) + br (ix2 (0 : Fin 1) (j 1))

/-- The column sums of a 50000-row array are the sums, over its ten 5000-row blocks, of the blocks' column sums:
    a finite sum regrouped, which on the extended reals needs no finiteness (addition there is commutative and
    associative). -/
theorem colsum_blocks (H : Mat 50000 96) (k : Fin 96) :
    colsum H k = ∑ t : Fin 10, ∑ r : Fin 5000, H (ix2 (⟨5000 * t.val + r.val, by omega⟩ : Fin 50000) k) := by
  unfold colsum
  rw [← Finset.sum_product', Finset.univ_product_univ]
  refine (Fintype.sum_equiv (finProdFinEquiv : Fin 10 × Fin 5000 ≃ Fin 50000) _ _ fun x => ?_).symm
  refine congrArg (fun r : Fin 50000 => H (ix2 r k)) (Fin.ext ?_)
  rw [finProdFinEquiv_apply_val]
  exact Nat.add_comm _ _

end Cert.GcnSpec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.PayIdx.lean ====
/-
  The idealized kernel's seven stored values as the common mathematics, on the extended reals.

  Each stored value is a pure function of the arrays its body loads. Read at one entry (p, q), with every float
  operation exact and every change of format the identity: a cast to the same shape is the identity; a column
  broadcast over 96 columns reads the column's entry of row p, and a row broadcast over 5000 rows reads the row's entry
  of column q; a matrix product into a zero accumulator is the sum over the contracted index of the products; a sum over
  the rows of a block, kept as a row, reads the column sum. So the two scaling values are "row p times n(p)", the two
  dense values are "sum over k of (X(p,k) · n(p)) · W(k,q), plus b(q)" (the first clamped below at zero), the pooling
  values are "zero", "accumulator plus the block's column sums" and "sum over k of (s(k) · 1/50000) · Wt(k,q), plus
  br(q)".
-/
import proofs.«165250_j58265526337787_1_alg».proof.Proof.Spec
import proofs.«165250_j58265526337787_1_alg».proof.Proof.Gen.KernelIdeal.Skeleton
import proofs.«165250_j58265526337787_1_alg».proof.Proof.LibPlainDot
import proofs.«165250_j58265526337787_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.PayIdx

open Idealize.ShloMosaic Idealize.ShloMosaic.ValueIdx Cert.KernelIdeal Cert.KernelIdeal.Gen Cert.GcnSpec

theorem pay_scale0 (x : Vec Ideal S5000x96 .f32) (n : Vec Ideal S5000x1 .f32) :
    (k0_pay1 (F := Ideal) x n : Mat 5000 96) = scale x n := by
  funext j
  obtain ⟨p, q, rfl⟩ : ∃ p q, j = ix2 p q := ⟨j 0, j 1, eq_ix2 j⟩
  unfold k0_pay1 scale
  show x (ix2 p q) * broadcastTo S5000x96 (shapeCast S5000x1 n _) _ (ix2 p q) = _
  rw [shapeCast_self]
  exact congrArg (fun t => x (ix2 p q) * t) (Cert.Keepdims.broadcastTo_a1_ab_apply n _ p q)

theorem pay_scale2 (x : Vec Ideal S5000x96 .f32) (n : Vec Ideal S5000x1 .f32) :
    (k2_pay1 (F := Ideal) x n : Mat 5000 96) = scale x n := by
  funext j
  obtain ⟨p, q, rfl⟩ : ∃ p q, j = ix2 p q := ⟨j 0, j 1, eq_ix2 j⟩
  unfold k2_pay1 scale
  show shapeCast S5000x96 x _ (ix2 p q) * broadcastTo S5000x96 (shapeCast S5000x1 n _) _ (ix2 p q) = _
  rw [shapeCast_self, shapeCast_self]
  exact congrArg (fun t => x (ix2 p q) * t) (Cert.Keepdims.broadcastTo_a1_ab_apply n _ p q)

theorem pay_zero4 : (k4_pay1 (F := Ideal) : Mat 1 96) = fun _ => 0 := by
  funext j
  unfold k4_pay1
  rw [shapeCast_self]
  exact Ideal.ofBits_zero_f32

/-- The dense layer without the clamp, at one entry: the matrix product into a zero accumulator is the sum over the
    contracted index of (X(p,k) · n(p)) · W(k,q), the format changes being the identity, and the broadcast bias adds b(q). -/
theorem dense_at (x : Vec Ideal S5000x96 .f32) (n : Vec Ideal S5000x1 .f32) (w : Vec Ideal S96x96 .f32)
    (b : Vec Ideal S1x96 .f32) (p : Fin 5000) (q : Fin 96) :
    k3_pay1 (F := Ideal) x n w b (ix2 p q) = dense x n w b (ix2 p q) := by
  unfold k3_pay1 dense
  rw [shapeCast_self, shapeCast_self, shapeCast_self]
  refine congrArg₂ (· + ·) ?_ (broadcastTo_1b_ab_apply b _ p q)
  refine (Cert.PlainDot.matmul_zero_apply 5000 96 96 none _ _ (ix2 p q)).trans ?_
  refine Finset.sum_congr rfl fun k _ => ?_
  exact congrArg (fun t => (x (ix2 p k) * t) * w (ix2 k q)) (Cert.Keepdims.broadcastTo_a1_ab_apply n _ p k)

theorem pay_dense3 (x : Vec Ideal S5000x96 .f32) (n : Vec Ideal S5000x1 .f32) (w : Vec Ideal S96x96 .f32)
    (b : Vec Ideal S1x96 .f32) : (k3_pay1 (F := Ideal) x n w b : Mat 5000 96) = dense x n w b := by
  funext j
  obtain ⟨p, q, rfl⟩ : ∃ p q, j = ix2 p q := ⟨j 0, j 1, eq_ix2 j⟩
  exact dense_at x n w b p q

/-- The first layer's payload is the second layer's clamped below at zero (the same program followed by a maximum with
    the broadcast zero word). -/
theorem pay1_eq_max (x : Vec Ideal S5000x96 .f32) (n : Vec Ideal S5000x1 .f32) (w : Vec Ideal S96x96 .f32)
    (b : Vec Ideal S1x96 .f32) (j : S5000x96.Idx) :
    k1_pay1 (F := Ideal) x n w b j = max (k3_pay1 (F := Ideal) x n w b j) (Ideal.ofBits .f32 0x00000000#32) := rfl

theorem pay_dense1 (x : Vec Ideal S5000x96 .f32) (n : Vec Ideal S5000x1 .f32) (w : Vec Ideal S96x96 .f32)
    (b : Vec Ideal S1x96 .f32) : (k1_pay1 (F := Ideal) x n w b : Mat 5000 96) = denseRelu x n w b := by
  funext j
  obtain ⟨p, q, rfl⟩ : ∃ p q, j = ix2 p q := ⟨j 0, j 1, eq_ix2 j⟩
  rw [pay1_eq_max, Ideal.ofBits_zero_f32, dense_at]
  rfl

/-- A one-axis sum over the rows of the block, kept as a row: entry (0, q) is the q-th column sum. -/
theorem pay_acc4 (a : Vec Ideal S1x96 .f32) (x : Vec Ideal S5000x96 .f32) :
    (k4_pay2 (F := Ideal) a x : Mat 1 96) = fun j => a j + colsum x (j 1) := by
  funext j
  obtain ⟨u, q, rfl⟩ : ∃ u q, j = ix2 u q := ⟨j 0, j 1, eq_ix2 j⟩
  unfold k4_pay2 colsum
  rw [shapeCast_self, shapeCast_self]
  refine congrArg (fun t => a (ix2 u q) + t) ?_
  refine (shapeCast_a_1a_apply _ _ u q).trans ?_
  exact Cert.Keepdims.sum_axis0_apply x _ _ _ _ q

/-- The named reciprocal denotes the rational 1/50000 on the extended reals, by the certificate's table. -/
theorem inv_50000 :
    Named.named (F := Ideal) Cert.KernelIdeal.κ "inv_50000" (φ := .f32) 0x37A7C5AC#32 = ((1 / 50000 : ℝ) : EReal) :=
  IdealRules.named_const.ideal_named_scalar _ _ _ _ rfl

/-- The readout: the accumulated column sums scaled by 1/50000, multiplied by the readout matrix into a zero
    accumulator, plus the bias. -/
theorem pay_readout4 (a : Vec Ideal S1x96 .f32) (wt : Vec Ideal S96x8 .f32) (br : Vec Ideal S1x8 .f32) :
    (k4_pay3 (F := Ideal) a wt br : Mat 1 8) = readout (fun k => a (ix2 (0 : Fin 1) k)) wt br := by
  funext j
  obtain ⟨u, q, rfl⟩ : ∃ u q, j = ix2 u q := ⟨j 0, j 1, eq_ix2 j⟩
  obtain rfl : u = 0 := Subsingleton.elim _ _
  unfold k4_pay3 readout
  rw [shapeCast_self, shapeCast_self]
  refine congrArg (fun t => t + br (ix2 (0 : Fin 1) q)) ?_
  refine (Cert.PlainDot.matmul_zero_apply 1 96 8 none _ _ (ix2 (0 : Fin 1) q)).trans ?_
  refine Finset.sum_congr rfl fun k _ => ?_
  exact congrArg (fun t => (a (ix2 (0 : Fin 1) k) * t) * wt (ix2 k q)) inv_50000

end Cert.KernelIdeal.PayIdx
end
-- ==== Proof.RefSpec.lean ====
/-
  The reference's stages as the common mathematics, every float an extended real and every operation the exact one.

  The message scaling before each gather is "row r times the out-norm of node r" (scale); each layer after the
  scatter is "row r times the in-norm of node r, times the weight matrix, plus the bias", clamped below at zero in
  the first layer (denseRelu) and not in the second (dense); the readout is the column sums divided by the 50000
  rows — on the extended reals the quotient by a nonzero real is the product with its inverse — times the transposed
  readout matrix, plus the bias (readout of colsum). The two norm columns are each broadcast twice by the same
  operation on the same operand, so the second copies equal the first.
-/
import proofs.«165250_j58265526337787_1_alg».proof.Proof.Spec
import proofs.«165250_j58265526337787_1_alg».proof.Proof.Gen.ReferenceIdeal.Read
import Idealize.ShloMosaic.PureOps.Ideal.Laws
import Idealize.ShloMosaic.Lib.ValueIdx

noncomputable section

open scoped BigOperators

namespace Cert.ReferenceIdeal.RefSpec

open Idealize.ShloMosaic Idealize.ShloMosaic.ValueIdx Cert.ReferenceIdeal Cert.ReferenceIdeal.Read Cert.GcnSpec

/-- The row-norm broadcast reads its column at (row, 0). -/
theorem idx14 (j : S50000x96.Idx) : idx_main_v14 j = ix2 (j 0) (0 : Fin 1) :=
  funext fun a => Fin.ext (by match a with | ⟨0, _⟩ => rfl | ⟨1, _⟩ => rfl)

theorem ref_v34_eq (x1 : (⟨S800000, .i32⟩ : BufTy).Contents (Elt Ideal)) :
    val_main_v34 (F := Ideal) x1 = val_main_v13 (F := Ideal) x1 := by
  unfold val_main_v34 val_main_v13
  rfl

theorem ref_v47_eq (x2 : (⟨S800000, .i32⟩ : BufTy).Contents (Elt Ideal)) :
    val_main_v47 (F := Ideal) x2 = val_main_v26 (F := Ideal) x2 := by
  unfold val_main_v47 val_main_v26
  rfl

theorem ref_v15 (x0 : (⟨S50000x96, .f32⟩ : BufTy).Contents (Elt Ideal)) (x1 : (⟨S800000, .i32⟩ : BufTy).Contents (Elt Ideal)) :
    (val_main_v15 (F := Ideal) x0 x1 : Mat 50000 96) = scale x0 (val_main_v13 (F := Ideal) x1) := by
  funext j
  rw [val_main_v15_apply, val_main_v14_apply]
  generalize val_main_v13 (F := Ideal) x1 = n
  rw [idx14]
  rfl

theorem idx35 (j : S50000x96.Idx) : idx_main_v35 j = ix2 (j 0) (0 : Fin 1) :=
  funext fun a => Fin.ext (by match a with | ⟨0, _⟩ => rfl | ⟨1, _⟩ => rfl)

theorem ref_v36 (x0 : (⟨S50000x96, .f32⟩ : BufTy).Contents (Elt Ideal)) (x1 x2 : (⟨S800000, .i32⟩ : BufTy).Contents (Elt Ideal))
    (x3 : (⟨S96x96, .f32⟩ : BufTy).Contents (Elt Ideal)) (x4 : (⟨S96, .f32⟩ : BufTy).Contents (Elt Ideal)) :
    (val_main_v36 (F := Ideal) x0 x1 x2 x3 x4 : Mat 50000 96)
      = scale (val_main_v33 (F := Ideal) x0 x1 x2 x3 x4) (val_main_v34 (F := Ideal) x1) := by
  funext j
  rw [val_main_v36_apply, val_main_v35_apply]
  generalize val_main_v33 (F := Ideal) x0 x1 x2 x3 x4 = H
  generalize val_main_v34 (F := Ideal) x1 = n
  rw [idx35]
  rfl

/-- The contraction reads the left operand at (row, k) … -/
theorem lidx29 (j : S50000x96.Idx) (k : Fin 96) : lidx_main_v29 j k = ix2 (j 0) k :=
  funext fun a => Fin.ext (by match a with | ⟨0, _⟩ => rfl | ⟨1, _⟩ => rfl)
/-- … and the weight at (k, column). -/
theorem ridx29 (j : S50000x96.Idx) (k : Fin 96) : ridx_main_v29 j k = ix2 k (j 1) :=
  funext fun a => Fin.ext (by match a with | ⟨0, _⟩ => rfl | ⟨1, _⟩ => rfl)
theorem idx27 (j : S50000x96.Idx) : idx_main_v27 j = ix2 (j 0) (0 : Fin 1) :=
  funext fun a => Fin.ext (by match a with | ⟨0, _⟩ => rfl | ⟨1, _⟩ => rfl)
theorem idx31 (j : S50000x96.Idx) : idx_main_v31 j = ix2 (0 : Fin 1) (j 1) :=
  funext fun a => Fin.ext (by match a with | ⟨0, _⟩ => rfl | ⟨1, _⟩ => rfl)

/-- The in-norm broadcast over the columns reads the norm column at (row, 0). -/
theorem v27_read (x2 : (⟨S800000, .i32⟩ : BufTy).Contents (Elt Ideal)) (i : S50000x96.Idx) :
    val_main_v27 (F := Ideal) x2 i = val_main_v26 (F := Ideal) x2 (ix2 (i 0) (0 : Fin 1)) := by
  rw [val_main_v27_apply]
  generalize val_main_v26 (F := Ideal) x2 = n
  exact congrArg n (idx27 i)

theorem ref_v33 (x0 : (⟨S50000x96, .f32⟩ : BufTy).Contents (Elt Ideal)) (x1 x2 : (⟨S800000, .i32⟩ : BufTy).Contents (Elt Ideal))
    (x3 : (⟨S96x96, .f32⟩ : BufTy).Contents (Elt Ideal)) (x4 : (⟨S96, .f32⟩ : BufTy).Contents (Elt Ideal)) :
    (val_main_v33 (F := Ideal) x0 x1 x2 x3 x4 : Mat 50000 96)
      = denseRelu (val_main_v25 (F := Ideal) x0 x1 x2) (val_main_v26 (F := Ideal) x2) x3 (val_main_v30 (F := Ideal) x4) := by
  funext j
  rw [val_main_v33_apply, val_main_v32_apply, val_main_v29_apply, val_main_v31_apply, val_main_call2_v0_apply,
    val_main_call2_cst_apply]
  unfold val_main_v28
  have hn := v27_read x2
  revert hn
  generalize val_main_v25 (F := Ideal) x0 x1 x2 = Y
  generalize val_main_v30 (F := Ideal) x4 = b
  generalize val_main_v27 (F := Ideal) x2 = nb
  generalize val_main_v26 (F := Ideal) x2 = n
  intro hn
  unfold denseRelu dense
  refine congrArg₂ max (congrArg₂ (· + ·) (Finset.sum_congr rfl fun k _ => ?_) ?_) Ideal.ofBits_zero_f32
  · rw [mulf_apply, hn, lidx29, ridx29]
    rfl
  · exact congrArg b (idx31 j)

theorem lidx50 (j : S50000x96.Idx) (k : Fin 96) : lidx_main_v50 j k = ix2 (j 0) k :=
  funext fun a => Fin.ext (by match a with | ⟨0, _⟩ => rfl | ⟨1, _⟩ => rfl)
theorem ridx50 (j : S50000x96.Idx) (k : Fin 96) : ridx_main_v50 j k = ix2 k (j 1) :=
  funext fun a => Fin.ext (by match a with | ⟨0, _⟩ => rfl | ⟨1, _⟩ => rfl)
theorem idx48 (j : S50000x96.Idx) : idx_main_v48 j = ix2 (j 0) (0 : Fin 1) :=
  funext fun a => Fin.ext (by match a with | ⟨0, _⟩ => rfl | ⟨1, _⟩ => rfl)
theorem idx52 (j : S50000x96.Idx) : idx_main_v52 j = ix2 (0 : Fin 1) (j 1) :=
  funext fun a => Fin.ext (by match a with | ⟨0, _⟩ => rfl | ⟨1, _⟩ => rfl)

/-- The second layer's in-norm broadcast reads the norm column at (row, 0). -/
theorem v48_read (x2 : (⟨S800000, .i32⟩ : BufTy).Contents (Elt Ideal)) (i : S50000x96.Idx) :
    val_main_v48 (F := Ideal) x2 i = val_main_v47 (F := Ideal) x2 (ix2 (i 0) (0 : Fin 1)) := by
  rw [val_main_v48_apply]
  generalize val_main_v47 (F := Ideal) x2 = n
  exact congrArg n (idx48 i)

theorem ref_v53 (x0 : (⟨S50000x96, .f32⟩ : BufTy).Contents (Elt Ideal)) (x1 x2 : (⟨S800000, .i32⟩ : BufTy).Contents (Elt Ideal))
    (x3 : (⟨S96x96, .f32⟩ : BufTy).Contents (Elt Ideal)) (x4 : (⟨S96, .f32⟩ : BufTy).Contents (Elt Ideal))
    (x5 : (⟨S96x96, .f32⟩ : BufTy).Contents (Elt Ideal)) (x6 : (⟨S96, .f32⟩ : BufTy).Contents (Elt Ideal)) :
    (val_main_v53 (F := Ideal) x0 x1 x2 x3 x4 x5 x6 : Mat 50000 96)
      = dense (val_main_v46 (F := Ideal) x0 x1 x2 x3 x4) (val_main_v47 (F := Ideal) x2) x5 (val_main_v51 (F := Ideal) x6) := by
  funext j
  rw [val_main_v53_apply, val_main_v50_apply, val_main_v52_apply]
  unfold val_main_v49
  have hn := v48_read x2
  revert hn
  generalize val_main_v46 (F := Ideal) x0 x1 x2 x3 x4 = Y
  generalize val_main_v51 (F := Ideal) x6 = b
  generalize val_main_v48 (F := Ideal) x2 = nb
  generalize val_main_v47 (F := Ideal) x2 = n
  intro hn
  unfold dense
  refine congrArg₂ (· + ·) (Finset.sum_congr rfl fun k _ => ?_) ?_
  · rw [mulf_apply, hn, lidx50, ridx50]
    rfl
  · exact congrArg b (idx52 j)

/-- The word 0x47435000 is the float 50000. -/
theorem ofBits_50000 : Ideal.ofBits .f32 0x47435000#32 = ((50000 : ℝ) : EReal) := by
  simp [Ideal.ofBits, Ideal.ieee, -EReal.coe_mul]; norm_num

theorem idx54 (i : S1x96.Idx) (r : Fin 50000) : idx_main_v54 (idx_main_v55 i) r = ix2 r (i 1) :=
  funext fun a => Fin.ext (by match a with | ⟨0, _⟩ => rfl | ⟨1, _⟩ => rfl)

/-- The mean row: column k of the sum over the rows, divided by 50000, i.e. multiplied by 1/50000. -/
theorem v57_read (x0 : (⟨S50000x96, .f32⟩ : BufTy).Contents (Elt Ideal)) (x1 x2 : (⟨S800000, .i32⟩ : BufTy).Contents (Elt Ideal))
    (x3 : (⟨S96x96, .f32⟩ : BufTy).Contents (Elt Ideal)) (x4 : (⟨S96, .f32⟩ : BufTy).Contents (Elt Ideal))
    (x5 : (⟨S96x96, .f32⟩ : BufTy).Contents (Elt Ideal)) (x6 : (⟨S96, .f32⟩ : BufTy).Contents (Elt Ideal)) (i : S1x96.Idx) :
    val_main_v57 (F := Ideal) x0 x1 x2 x3 x4 x5 x6 i
      = colsum (val_main_v53 (F := Ideal) x0 x1 x2 x3 x4 x5 x6) (i 1) * ((1 / 50000 : ℝ) : EReal) := by
  rw [val_main_v57_apply, val_main_v55_apply, val_main_v54_apply, val_main_v56_apply, val_main_cst_12_apply,
    val_main_cst_11_apply]
  generalize val_main_v53 (F := Ideal) x0 x1 x2 x3 x4 x5 x6 = H
  rw [Ideal.hostDivf_def, Ideal.ofBits_def, Ideal.ofBits_def, ofBits_50000, Ideal.ofBits_zero_f32, zero_add,
    Ideal.div_coe (by norm_num : (50000 : ℝ) ≠ 0)]
  unfold colsum
  exact congrArg (· * ((1 / 50000 : ℝ) : EReal)) (Finset.sum_congr rfl fun r _ => congrArg H (idx54 i r))

theorem lidx59 (j : S1x8.Idx) (k : Fin 96) : lidx_main_v59 j k = ix2 (j 0) k :=
  funext fun a => Fin.ext (by match a with | ⟨0, _⟩ => rfl | ⟨1, _⟩ => rfl)
theorem ridx59 (j : S1x8.Idx) (k : Fin 96) : ridx_main_v59 j k = ix2 k (j 1) :=
  funext fun a => Fin.ext (by match a with | ⟨0, _⟩ => rfl | ⟨1, _⟩ => rfl)
/-- A one-row index has row 0. -/
theorem row0 (j : S1x8.Idx) : j = ix2 (0 : Fin 1) (j 1) :=
  funext fun a => Fin.ext (by
    match a with
    | ⟨0, _⟩ => exact Nat.lt_one_iff.mp (j 0).isLt
    | ⟨1, _⟩ => rfl)

theorem ref_v61 (x0 : (⟨S50000x96, .f32⟩ : BufTy).Contents (Elt Ideal)) (x1 x2 : (⟨S800000, .i32⟩ : BufTy).Contents (Elt Ideal))
    (x3 : (⟨S96x96, .f32⟩ : BufTy).Contents (Elt Ideal)) (x4 : (⟨S96, .f32⟩ : BufTy).Contents (Elt Ideal))
    (x5 : (⟨S96x96, .f32⟩ : BufTy).Contents (Elt Ideal)) (x6 : (⟨S96, .f32⟩ : BufTy).Contents (Elt Ideal))
    (x7 : (⟨S8x96, .f32⟩ : BufTy).Contents (Elt Ideal)) (x8 : (⟨S8, .f32⟩ : BufTy).Contents (Elt Ideal)) :
    (val_main_v61 (F := Ideal) x0 x1 x2 x3 x4 x5 x6 x7 x8 : Mat 1 8)
      = readout (colsum (val_main_v53 (F := Ideal) x0 x1 x2 x3 x4 x5 x6)) (val_main_v58 (F := Ideal) x7)
          (val_main_v60 (F := Ideal) x8) := by
  funext j
  rw [val_main_v61_apply, val_main_v59_apply]
  have hm := v57_read x0 x1 x2 x3 x4 x5 x6
  revert hm
  generalize val_main_v57 (F := Ideal) x0 x1 x2 x3 x4 x5 x6 = m
  generalize val_main_v53 (F := Ideal) x0 x1 x2 x3 x4 x5 x6 = H
  generalize val_main_v58 (F := Ideal) x7 = Wt
  generalize val_main_v60 (F := Ideal) x8 = br
  intro hm
  unfold readout
  refine congrArg₂ (· + ·) (Finset.sum_congr rfl fun k _ => ?_) (congrArg br (row0 j))
  rw [hm, lidx59, ridx59]
  rfl

end Cert.ReferenceIdeal.RefSpec

end
-- ==== Proof.ArrVal.lean ====
/-
  Regions 0 to 3 of the idealized kernel tile the 50000 rows into ten blocks of 5000. Each region's output array,
  after all ten blocks are written back, is one whole-array function of the arrays the region found: the row
  scaling and the dense layers read, at row r, only row r of their row-indexed operands and the whole of the
  weight and bias operands, so block t of the whole-array function is the function of the blocks at t.
-/
import proofs.«165250_j58265526337787_1_alg».proof.Proof.Spec
import proofs.«165250_j58265526337787_1_alg».proof.Proof.Body0123
import Idealize.ShloMosaic.Lib.Pipeline.Value
import Idealize.ShloMosaic.Lib.ValueIdx

set_option maxRecDepth 16384

noncomputable section

namespace Cert.KernelIdeal.ArrVal

open Idealize.ShloMosaic Idealize.ShloMosaic.TcCoe Idealize.ShloMosaic.ValueIdx Cert.KernelIdeal Cert.KernelIdeal.Gen Cert.KernelIdeal.Hand Cert.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Row locality of the spec's functions

Block k of the scaled array is the scaling of block k of the operands, and likewise for the dense layers, whose
weight and bias operands every block sees whole. -/

/-- The scaling at row p of block k reads row 5000·k + p of the array and of the norm column. -/
theorem scale_rows (X : Mat 50000 96) (n : Mat 50000 1) (xb : Mat 5000 96) (nb : Mat 5000 1) (k : Nat) (hk : k < 10)
    (hx : ∀ (p : Fin 5000) (q : Fin 96), xb (ix2 p q) = X (ix2 (⟨5000 * k + p.val, by omega⟩ : Fin 50000) q))
    (hn : ∀ p : Fin 5000, nb (ix2 p (0 : Fin 1)) = n (ix2 (⟨5000 * k + p.val, by omega⟩ : Fin 50000) (0 : Fin 1)))
    (p : Fin 5000) (q : Fin 96) :
    scale xb nb (ix2 p q) = scale X n (ix2 (⟨5000 * k + p.val, by omega⟩ : Fin 50000) q) := by
  show xb (ix2 p q) * nb (ix2 p (0 : Fin 1)) = X (ix2 _ q) * n (ix2 _ (0 : Fin 1))
  rw [hx, hn]

/-- The dense layer at row p of block k reads row 5000·k + p of the array and of the norm column, and the whole of
    the weights and the bias. -/
theorem dense_rows (X : Mat 50000 96) (n : Mat 50000 1) (W : Mat 96 96) (b : Mat 1 96) (xb : Mat 5000 96) (nb : Mat 5000 1)
    (Wb : Mat 96 96) (bb : Mat 1 96) (k : Nat) (hk : k < 10)
    (hx : ∀ (p : Fin 5000) (q : Fin 96), xb (ix2 p q) = X (ix2 (⟨5000 * k + p.val, by omega⟩ : Fin 50000) q))
    (hn : ∀ p : Fin 5000, nb (ix2 p (0 : Fin 1)) = n (ix2 (⟨5000 * k + p.val, by omega⟩ : Fin 50000) (0 : Fin 1)))
    (hW : Wb = W) (hb : bb = b) (p : Fin 5000) (q : Fin 96) :
    dense xb nb Wb bb (ix2 p q) = dense X n W b (ix2 (⟨5000 * k + p.val, by omega⟩ : Fin 50000) q) := by
  subst hW hb
  show (∑ j : Fin 96, (xb (ix2 p j) * nb (ix2 p (0 : Fin 1))) * Wb (ix2 j q)) + bb (ix2 (0 : Fin 1) q)
    = (∑ j : Fin 96, (X (ix2 _ j) * n (ix2 _ (0 : Fin 1))) * Wb (ix2 j q)) + bb (ix2 (0 : Fin 1) q)
  rw [hn]
  simp only [hx]

/-- The clamped dense layer, likewise. -/
theorem denseRelu_rows (X : Mat 50000 96) (n : Mat 50000 1) (W : Mat 96 96) (b : Mat 1 96) (xb : Mat 5000 96) (nb : Mat 5000 1)
    (Wb : Mat 96 96) (bb : Mat 1 96) (k : Nat) (hk : k < 10)
    (hx : ∀ (p : Fin 5000) (q : Fin 96), xb (ix2 p q) = X (ix2 (⟨5000 * k + p.val, by omega⟩ : Fin 50000) q))
    (hn : ∀ p : Fin 5000, nb (ix2 p (0 : Fin 1)) = n (ix2 (⟨5000 * k + p.val, by omega⟩ : Fin 50000) (0 : Fin 1)))
    (hW : Wb = W) (hb : bb = b) (p : Fin 5000) (q : Fin 96) :
    denseRelu xb nb Wb bb (ix2 p q) = denseRelu X n W b (ix2 (⟨5000 * k + p.val, by omega⟩ : Fin 50000) q) := by
  show max (dense xb nb Wb bb (ix2 p q)) 0 = max (dense X n W b (ix2 _ q)) 0
  rw [dense_rows X n W b xb nb Wb bb k hk hx hn hW hb p q]

/-! ## Region 0: the rows of the input scaled by the source-degree norm -/

/-- The printed index maps over the grid: at point t the row-indexed windows show block (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block t of the scaled array is the body's result on the blocks at t. -/
theorem block0 (hp0 : ∀ (x : Vec Ideal S5000x96 .f32) (n : Vec Ideal S5000x1 .f32), (k0_pay1 (F := Ideal) x n : Mat 5000 96) = scale x n)
    (X : Mat 50000 96) (n : Mat 50000 1) (t : Fin cfg0.N) (j : ((win0 2).xblock (grid0.coords t)).Idx) :
    (win0 2).cut (grid0.coords t) (k0_pay1 (((cfg0.win 0).blk t).view.read (Elt Ideal) X) (((cfg0.win 1).blk t).view.read (Elt Ideal) n)) j
      = View.read (Elt Ideal) ((View.whole main_v15).slice ((win0 2).rect t)) (scale X n) j := by
  obtain ⟨a0, a1, b0, b1, c0, c1⟩ := idx0 t
  have ht : t.val < 10 := lt_of_lt_of_eq t.isLt N_0
  have hj0 : (j 0).val < 5000 := (j 0).isLt
  have hj1 : (j 1).val < 96 := (j 1).isLt
  refine (congrFun (hp0 _ _) _).trans ?_
  have e1 : (win0 2).xinj (grid0.coords t) j = ix2 (⟨(j 0).val, hj0⟩ : Fin 5000) (⟨(j 1).val, hj1⟩ : Fin 96) :=
    funext (Fin.forall_fin_two.mpr ⟨rfl, rfl⟩)
  have e2 : ((win0 2).rect t).emb j = ix2 (⟨5000 * t.val + (j 0).val, by omega⟩ : Fin 50000) (⟨(j 1).val, hj1⟩ : Fin 96) := by
    funext a; apply Fin.ext
    match a with
    | ⟨0, _⟩ => show win0_2.index t (0 : Fin 2) * 5000 + 1 * (j 0).val = 5000 * t.val + (j 0).val; omega
    | ⟨1, _⟩ => show win0_2.index t (1 : Fin 2) * 96 + 1 * (j 1).val = (j 1).val; omega
  refine (congrArg (scale (((cfg0.win 0).blk t).view.read (Elt Ideal) X) (((cfg0.win 1).blk t).view.read (Elt Ideal) n)) e1).trans ?_
  refine Eq.trans ?_ (congrArg (scale X n) e2).symm
  refine scale_rows X n _ _ t.val ht (fun p q => ?_) (fun p => ?_) _ _
  · refine congrArg X ?_
    funext a; apply Fin.ext
    match a with
    | ⟨0, _⟩ => show win0_0.index t (0 : Fin 2) * 5000 + 1 * p.val = 5000 * t.val + p.val; omega
    | ⟨1, _⟩ => show win0_0.index t (1 : Fin 2) * 96 + 1 * q.val = q.val; omega
  · refine congrArg n ?_
    funext a; apply Fin.ext
    match a with
    | ⟨0, _⟩ => show win0_1.index t (0 : Fin 2) * 5000 + 1 * p.val = 5000 * t.val + p.val; omega
    | ⟨1, _⟩ => show win0_1.index t (1 : Fin 2) * 1 + 1 * (0 : Fin 1).val = (0 : Fin 1).val; omega

/-- The scaled array the region ends holding. -/
def G0 (c : Dev nD) : Mat 50000 96 := scale (V c (Pipeline.arrRef spec0 0)) (V c (Pipeline.arrRef spec0 1))

/-- What point t writes back is block t of the scaled array. -/
theorem flushed0_eq (hp0 : ∀ (x : Vec Ideal S5000x96 .f32) (n : Vec Ideal S5000x1 .f32), (k0_pay1 (F := Ideal) x n : Mat 5000 96) = scale x n)
    (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S5000x96) hz, View.ld_unit_zero (S := S5000x1) hz]
  funext j
  unfold iblk0 G0
  exact block0 hp0 _ _ t j

/-- An index of the array is in point t's block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v15).slice (win0_2.rect t)).set ↔ _
  rw [View.set_slice_whole, Rect.mem_set_unit]
  exact Iff.rfl

/-- Row r of the array is in the block of point r / 5000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  refine ⟨⟨(i 0).val / 5000, lt_of_lt_of_eq (by omega) N_0.symm⟩, flush0_2 _, ?_⟩
  rw [mem_blk0]
  obtain ⟨a0, a1, b0, b1, c0, c1⟩ := idx0 ⟨(i 0).val / 5000, lt_of_lt_of_eq (by omega) N_0.symm⟩
  intro a
  match a with
  | ⟨0, _⟩ =>
    show win0_2.index _ (0 : Fin 2) * 5000 ≤ (i 0).val ∧ (i 0).val < win0_2.index _ (0 : Fin 2) * 5000 + 5000
    rw [c0]; show (i 0).val / 5000 * 5000 ≤ (i 0).val ∧ (i 0).val < (i 0).val / 5000 * 5000 + 5000; omega
  | ⟨1, _⟩ =>
    show win0_2.index _ (1 : Fin 2) * 96 ≤ (i 1).val ∧ (i 1).val < win0_2.index _ (1 : Fin 2) * 96 + 96
    rw [c1]; omega

/-- Region 0's output array is the input with each row scaled by its node's source-degree norm. -/
theorem arr0 (hp0 : ∀ (x : Vec Ideal S5000x96 .f32) (n : Vec Ideal S5000x1 .f32), (k0_pay1 (F := Ideal) x n : Mat 5000 96) = scale x n)
    (c : Dev nD) : ((dat0 V c).arrAt 2 cfg0.N : Mat 50000 96) = scale (V c main_arg0) (V c main_v13) :=
  (dat0 V c).arrAt_eq_of_cover 2 (G0 V c) (fun t _ => flushed0_eq V hp0 c t) cover0

/-! ## Region 1: the first dense layer, clamped at zero -/

/-- The printed index maps over the grid: at point t the row-indexed windows show block (t, 0), the weight and bias
    windows the whole of their arrays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the layer's array is the body's result on the blocks at t. -/
theorem block1 (hp1 : ∀ (x : Vec Ideal S5000x96 .f32) (n : Vec Ideal S5000x1 .f32) (w : Vec Ideal S96x96 .f32) (b : Vec Ideal S1x96 .f32), (k1_pay1 (F := Ideal) x n w b : Mat 5000 96) = denseRelu x n w b)
    (X : Mat 50000 96) (n : Mat 50000 1) (W : Mat 96 96) (b : Mat 1 96) (t : Fin cfg1.N) (j : ((win1 4).xblock (grid1.coords t)).Idx) :
    (win1 4).cut (grid1.coords t) (k1_pay1 (((cfg1.win 0).blk t).view.read (Elt Ideal) X) (((cfg1.win 1).blk t).view.read (Elt Ideal) n) (((cfg1.win 2).blk t).view.read (Elt Ideal) W) (((cfg1.win 3).blk t).view.read (Elt Ideal) b)) j
      = View.read (Elt Ideal) ((View.whole main_v27).slice ((win1 4).rect t)) (denseRelu X n W b) j := by
  obtain ⟨a0, a1, b0, b1, w0, w1, d0, d1, c0, c1⟩ := idx1 t
  have ht : t.val < 10 := lt_of_lt_of_eq t.isLt N_1
  have hj0 : (j 0).val < 5000 := (j 0).isLt
  have hj1 : (j 1).val < 96 := (j 1).isLt
  refine (congrFun (hp1 _ _ _ _) _).trans ?_
  have e1 : (win1 4).xinj (grid1.coords t) j = ix2 (⟨(j 0).val, hj0⟩ : Fin 5000) (⟨(j 1).val, hj1⟩ : Fin 96) :=
    funext (Fin.forall_fin_two.mpr ⟨rfl, rfl⟩)
  have e2 : ((win1 4).rect t).emb j = ix2 (⟨5000 * t.val + (j 0).val, by omega⟩ : Fin 50000) (⟨(j 1).val, hj1⟩ : Fin 96) := by
    funext a; apply Fin.ext
    match a with
    | ⟨0, _⟩ => show win1_4.index t (0 : Fin 2) * 5000 + 1 * (j 0).val = 5000 * t.val + (j 0).val; omega
    | ⟨1, _⟩ => show win1_4.index t (1 : Fin 2) * 96 + 1 * (j 1).val = (j 1).val; omega
  refine (congrArg (denseRelu (((cfg1.win 0).blk t).view.read (Elt Ideal) X) (((cfg1.win 1).blk t).view.read (Elt Ideal) n) (((cfg1.win 2).blk t).view.read (Elt Ideal) W) (((cfg1.win 3).blk t).view.read (Elt Ideal) b)) e1).trans ?_
  refine Eq.trans ?_ (congrArg (denseRelu X n W b) e2).symm
  refine denseRelu_rows X n W b _ _ _ _ t.val ht (fun p q => ?_) (fun p => ?_) ?_ ?_ _ _
  · refine congrArg X ?_
    funext a; apply Fin.ext
    match a with
    | ⟨0, _⟩ => show win1_0.index t (0 : Fin 2) * 5000 + 1 * p.val = 5000 * t.val + p.val; omega
    | ⟨1, _⟩ => show win1_0.index t (1 : Fin 2) * 96 + 1 * q.val = q.val; omega
  · refine congrArg n ?_
    funext a; apply Fin.ext
    match a with
    | ⟨0, _⟩ => show win1_1.index t (0 : Fin 2) * 5000 + 1 * p.val = 5000 * t.val + p.val; omega
    | ⟨1, _⟩ => show win1_1.index t (1 : Fin 2) * 1 + 1 * (0 : Fin 1).val = (0 : Fin 1).val; omega
  · funext i
    refine congrArg W ?_
    funext a; apply Fin.ext
    match a with
    | ⟨0, _⟩ => show win1_2.index t (0 : Fin 2) * 96 + 1 * (i 0).val = (i 0).val; omega
    | ⟨1, _⟩ => show win1_2.index t (1 : Fin 2) * 96 + 1 * (i 1).val = (i 1).val; omega
  · funext i
    refine congrArg b ?_
    funext a; apply Fin.ext
    match a with
    | ⟨0, _⟩ => show win1_3.index t (0 : Fin 2) * 1 + 1 * (i 0).val = (i 0).val; omega
    | ⟨1, _⟩ => show win1_3.index t (1 : Fin 2) * 96 + 1 * (i 1).val = (i 1).val; omega

/-- The layer's array the region ends holding. -/
def G1 (c : Dev nD) : Mat 50000 96 :=
  denseRelu (V c (Pipeline.arrRef spec1 0)) (V c (Pipeline.arrRef spec1 1)) (V c (Pipeline.arrRef spec1 2)) (V c (Pipeline.arrRef spec1 3))

/-- What point t writes back is block t of the layer's array. -/
theorem flushed1_eq (hp1 : ∀ (x : Vec Ideal S5000x96 .f32) (n : Vec Ideal S5000x1 .f32) (w : Vec Ideal S96x96 .f32) (b : Vec Ideal S1x96 .f32), (k1_pay1 (F := Ideal) x n w b : Mat 5000 96) = denseRelu x n w b)
    (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S5000x96) hz, View.ld_unit_zero (S := S5000x1) hz, View.ld_unit_zero (S := S96x96) hz, View.ld_unit_zero (S := S1x96) hz]
  funext j
  unfold iblk1 G1
  exact block1 hp1 _ _ _ _ t j

/-- An index of the array is in point t's block iff each coordinate is in the block's range on its axis. -/
theorem mem_blk1 (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v27).slice (win1_4.rect t)).set ↔ _
  rw [View.set_slice_whole, Rect.mem_set_unit]
  exact Iff.rfl

/-- Row r of the array is in the block of point r / 5000. -/
theorem cover1 (i : S50000x96.Idx) : ∃ t : Fin cfg1.N, (cfg1.win 4).flush t = true ∧ i ∈ ((cfg1.win 4).blk t).view.set := by
  have hi0 : (i 0).val < 50000 := (i 0).isLt
  have hi1 : (i 1).val < 96 := (i 1).isLt
  refine ⟨⟨(i 0).val / 5000, lt_of_lt_of_eq (by omega) N_1.symm⟩, flush1_4 _, ?_⟩
  rw [mem_blk1]
  obtain ⟨a0, a1, b0, b1, w0, w1, d0, d1, c0, c1⟩ := idx1 ⟨(i 0).val / 5000, lt_of_lt_of_eq (by omega) N_1.symm⟩
  intro a
  match a with
  | ⟨0, _⟩ =>
    show win1_4.index _ (0 : Fin 2) * 5000 ≤ (i 0).val ∧ (i 0).val < win1_4.index _ (0 : Fin 2) * 5000 + 5000
    rw [c0]; show (i 0).val / 5000 * 5000 ≤ (i 0).val ∧ (i 0).val < (i 0).val / 5000 * 5000 + 5000; omega
  | ⟨1, _⟩ =>
    show win1_4.index _ (1 : Fin 2) * 96 ≤ (i 1).val ∧ (i 1).val < win1_4.index _ (1 : Fin 2) * 96 + 96
    rw [c1]; omega

/-- Region 1's output array is the clamped dense layer of the aggregated messages, the destination-degree norm, the first weights and the first bias. -/
theorem arr1 (hp1 : ∀ (x : Vec Ideal S5000x96 .f32) (n : Vec Ideal S5000x1 .f32) (w : Vec Ideal S96x96 .f32) (b : Vec Ideal S1x96 .f32), (k1_pay1 (F := Ideal) x n w b : Mat 5000 96) = denseRelu x n w b)
    (c : Dev nD) : ((dat1 V c).arrAt 4 cfg1.N : Mat 50000 96) = denseRelu (V c main_v25) (V c main_v14) (V c main_arg3) (V c main_v26) :=
  (dat1 V c).arrAt_eq_of_cover 4 (G1 V c) (fun t _ => flushed1_eq V hp1 c t) cover1

/-! ## Region 2: the rows of the hidden layer scaled by the source-degree norm -/

/-- The printed index maps over the grid: at point t the row-indexed windows show block (t, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Block t of the scaled array is the body's result on the blocks at t. -/
theorem block2 (hp2 : ∀ (x : Vec Ideal S5000x96 .f32) (n : Vec Ideal S5000x1 .f32), (k2_pay1 (F := Ideal) x n : Mat 5000 96) = scale x n)
    (X : Mat 50000 96) (n : Mat 50000 1) (t : Fin cfg2.N) (j : ((win2 2).xblock (grid2.coords t)).Idx) :
    (win2 2).cut (grid2.coords t) (k2_pay1 (((cfg2.win 0).blk t).view.read (Elt Ideal) X) (((cfg2.win 1).blk t).view.read (Elt Ideal) n)) j
      = View.read (Elt Ideal) ((View.whole main_v28).slice ((win2 2).rect t)) (scale X n) j := by
  obtain ⟨a0, a1, b0, b1, c0, c1⟩ := idx2 t
  have ht : t.val < 10 := lt_of_lt_of_eq t.isLt N_2
  have hj0 : (j 0).val < 5000 := (j 0).isLt
  have hj1 : (j 1).val < 96 := (j 1).isLt
  refine (congrFun (hp2 _ _) _).trans ?_
  have e1 : (win2 2).xinj (grid2.coords t) j = ix2 (⟨(j 0).val, hj0⟩ : Fin 5000) (⟨(j 1).val, hj1⟩ : Fin 96) :=
    funext (Fin.forall_fin_two.mpr ⟨rfl, rfl⟩)
  have e2 : ((win2 2).rect t).emb j = ix2 (⟨5000 * t.val + (j 0).val, by omega⟩ : Fin 50000) (⟨(j 1).val, hj1⟩ : Fin 96) := by
    funext a; apply Fin.ext
    match a with
    | ⟨0, _⟩ => show win2_2.index t (0 : Fin 2) * 5000 + 1 * (j 0).val = 5000 * t.val + (j 0).val; omega
    | ⟨1, _⟩ => show win2_2.index t (1 : Fin 2) * 96 + 1 * (j 1).val = (j 1).val; omega
  refine (congrArg (scale (((cfg2.win 0).blk t).view.read (Elt Ideal) X) (((cfg2.win 1).blk t).view.read (Elt Ideal) n)) e1).trans ?_
  refine Eq.trans ?_ (congrArg (scale X n) e2).symm
  refine scale_rows X n _ _ t.val ht (fun p q => ?_) (fun p => ?_) _ _
  · refine congrArg X ?_
    funext a; apply Fin.ext
    match a with
    | ⟨0, _⟩ => show win2_0.index t (0 : Fin 2) * 5000 + 1 * p.val = 5000 * t.val + p.val; omega
    | ⟨1, _⟩ => show win2_0.index t (1 : Fin 2) * 96 + 1 * q.val = q.val; omega
  · refine congrArg n ?_
    funext a; apply Fin.ext
    match a with
    | ⟨0, _⟩ => show win2_1.index t (0 : Fin 2) * 5000 + 1 * p.val = 5000 * t.val + p.val; omega
    | ⟨1, _⟩ => show win2_1.index t (1 : Fin 2) * 1 + 1 * (0 : Fin 1).val = (0 : Fin 1).val; omega

/-- The scaled array the region ends holding. -/
def G2 (c : Dev nD) : Mat 50000 96 := scale (V c (Pipeline.arrRef spec2 0)) (V c (Pipeline.arrRef spec2 1))

/-- What point t writes back is block t of the scaled array. -/
theorem flushed2_eq (hp2 : ∀ (x : Vec Ideal S5000x96 .f32) (n : Vec Ideal S5000x1 .f32), (k2_pay1 (F := Ideal) x n : Mat 5000 96) = scale x n)
    (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S5000x96) hz, View.ld_unit_zero (S := S5000x1) hz]
  funext j
  unfold iblk2 G2
  exact block2 hp2 _ _ t j

/-- An index of the array is in point t's block iff each coordinate is in the block's range on its axis. -/
theorem mem_blk2 (t : Fin cfg2.N) (i : S50000x96.Idx) :
    i ∈ ((cfg2.win 2).blk t).view.set ↔ ∀ a : Fin 2, win2_2.index t a * S5000x96.size a ≤ (i a).val ∧ (i a).val < win2_2.index t a * S5000x96.size a + S5000x96.size a := by
  show i ∈ ((View.whole main_v28).slice (win2_2.rect t)).set ↔ _
  rw [View.set_slice_whole, Rect.mem_set_unit]
  exact Iff.rfl

/-- Row r of the array is in the block of point r / 5000. -/
theorem cover2 (i : S50000x96.Idx) : ∃ t : Fin cfg2.N, (cfg2.win 2).flush t = true ∧ i ∈ ((cfg2.win 2).blk t).view.set := by
  have hi0 : (i 0).val < 50000 := (i 0).isLt
  have hi1 : (i 1).val < 96 := (i 1).isLt
  refine ⟨⟨(i 0).val / 5000, lt_of_lt_of_eq (by omega) N_2.symm⟩, flush2_2 _, ?_⟩
  rw [mem_blk2]
  obtain ⟨a0, a1, b0, b1, c0, c1⟩ := idx2 ⟨(i 0).val / 5000, lt_of_lt_of_eq (by omega) N_2.symm⟩
  intro a
  match a with
  | ⟨0, _⟩ =>
    show win2_2.index _ (0 : Fin 2) * 5000 ≤ (i 0).val ∧ (i 0).val < win2_2.index _ (0 : Fin 2) * 5000 + 5000
    rw [c0]; show (i 0).val / 5000 * 5000 ≤ (i 0).val ∧ (i 0).val < (i 0).val / 5000 * 5000 + 5000; omega
  | ⟨1, _⟩ =>
    show win2_2.index _ (1 : Fin 2) * 96 ≤ (i 1).val ∧ (i 1).val < win2_2.index _ (1 : Fin 2) * 96 + 96
    rw [c1]; omega

/-- Region 2's output array is the hidden layer with each row scaled by its node's source-degree norm. -/
theorem arr2 (hp2 : ∀ (x : Vec Ideal S5000x96 .f32) (n : Vec Ideal S5000x1 .f32), (k2_pay1 (F := Ideal) x n : Mat 5000 96) = scale x n)
    (c : Dev nD) : ((dat2 V c).arrAt 2 cfg2.N : Mat 50000 96) = scale (V c main_v27) (V c main_v13) :=
  (dat2 V c).arrAt_eq_of_cover 2 (G2 V c) (fun t _ => flushed2_eq V hp2 c t) cover2

/-! ## Region 3: the second dense layer -/

/-- The printed index maps over the grid: at point t the row-indexed windows show block (t, 0), the weight and bias
    windows the whole of their arrays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Block t of the layer's array is the body's result on the blocks at t. -/
theorem block3 (hp3 : ∀ (x : Vec Ideal S5000x96 .f32) (n : Vec Ideal S5000x1 .f32) (w : Vec Ideal S96x96 .f32) (b : Vec Ideal S1x96 .f32), (k3_pay1 (F := Ideal) x n w b : Mat 5000 96) = dense x n w b)
    (X : Mat 50000 96) (n : Mat 50000 1) (W : Mat 96 96) (b : Mat 1 96) (t : Fin cfg3.N) (j : ((win3 4).xblock (grid3.coords t)).Idx) :
    (win3 4).cut (grid3.coords t) (k3_pay1 (((cfg3.win 0).blk t).view.read (Elt Ideal) X) (((cfg3.win 1).blk t).view.read (Elt Ideal) n) (((cfg3.win 2).blk t).view.read (Elt Ideal) W) (((cfg3.win 3).blk t).view.read (Elt Ideal) b)) j
      = View.read (Elt Ideal) ((View.whole main_v40).slice ((win3 4).rect t)) (dense X n W b) j := by
  obtain ⟨a0, a1, b0, b1, w0, w1, d0, d1, c0, c1⟩ := idx3 t
  have ht : t.val < 10 := lt_of_lt_of_eq t.isLt N_3
  have hj0 : (j 0).val < 5000 := (j 0).isLt
  have hj1 : (j 1).val < 96 := (j 1).isLt
  refine (congrFun (hp3 _ _ _ _) _).trans ?_
  have e1 : (win3 4).xinj (grid3.coords t) j = ix2 (⟨(j 0).val, hj0⟩ : Fin 5000) (⟨(j 1).val, hj1⟩ : Fin 96) :=
    funext (Fin.forall_fin_two.mpr ⟨rfl, rfl⟩)
  have e2 : ((win3 4).rect t).emb j = ix2 (⟨5000 * t.val + (j 0).val, by omega⟩ : Fin 50000) (⟨(j 1).val, hj1⟩ : Fin 96) := by
    funext a; apply Fin.ext
    match a with
    | ⟨0, _⟩ => show win3_4.index t (0 : Fin 2) * 5000 + 1 * (j 0).val = 5000 * t.val + (j 0).val; omega
    | ⟨1, _⟩ => show win3_4.index t (1 : Fin 2) * 96 + 1 * (j 1).val = (j 1).val; omega
  refine (congrArg (dense (((cfg3.win 0).blk t).view.read (Elt Ideal) X) (((cfg3.win 1).blk t).view.read (Elt Ideal) n) (((cfg3.win 2).blk t).view.read (Elt Ideal) W) (((cfg3.win 3).blk t).view.read (Elt Ideal) b)) e1).trans ?_
  refine Eq.trans ?_ (congrArg (dense X n W b) e2).symm
  refine dense_rows X n W b _ _ _ _ t.val ht (fun p q => ?_) (fun p => ?_) ?_ ?_ _ _
  · refine congrArg X ?_
    funext a; apply Fin.ext
    match a with
    | ⟨0, _⟩ => show win3_0.index t (0 : Fin 2) * 5000 + 1 * p.val = 5000 * t.val + p.val; omega
    | ⟨1, _⟩ => show win3_0.index t (1 : Fin 2) * 96 + 1 * q.val = q.val; omega
  · refine congrArg n ?_
    funext a; apply Fin.ext
    match a with
    | ⟨0, _⟩ => show win3_1.index t (0 : Fin 2) * 5000 + 1 * p.val = 5000 * t.val + p.val; omega
    | ⟨1, _⟩ => show win3_1.index t (1 : Fin 2) * 1 + 1 * (0 : Fin 1).val = (0 : Fin 1).val; omega
  · funext i
    refine congrArg W ?_
    funext a; apply Fin.ext
    match a with
    | ⟨0, _⟩ => show win3_2.index t (0 : Fin 2) * 96 + 1 * (i 0).val = (i 0).val; omega
    | ⟨1, _⟩ => show win3_2.index t (1 : Fin 2) * 96 + 1 * (i 1).val = (i 1).val; omega
  · funext i
    refine congrArg b ?_
    funext a; apply Fin.ext
    match a with
    | ⟨0, _⟩ => show win3_3.index t (0 : Fin 2) * 1 + 1 * (i 0).val = (i 0).val; omega
    | ⟨1, _⟩ => show win3_3.index t (1 : Fin 2) * 96 + 1 * (i 1).val = (i 1).val; omega

/-- The layer's array the region ends holding. -/
def G3 (c : Dev nD) : Mat 50000 96 :=
  dense (V c (Pipeline.arrRef spec3 0)) (V c (Pipeline.arrRef spec3 1)) (V c (Pipeline.arrRef spec3 2)) (V c (Pipeline.arrRef spec3 3))

/-- What point t writes back is block t of the layer's array. -/
theorem flushed3_eq (hp3 : ∀ (x : Vec Ideal S5000x96 .f32) (n : Vec Ideal S5000x1 .f32) (w : Vec Ideal S96x96 .f32) (b : Vec Ideal S1x96 .f32), (k3_pay1 (F := Ideal) x n w b : Mat 5000 96) = dense x n w b)
    (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz]
  simp only [View.ld_unit_zero (S := S5000x96) hz, View.ld_unit_zero (S := S5000x1) hz, View.ld_unit_zero (S := S96x96) hz, View.ld_unit_zero (S := S1x96) hz]
  funext j
  unfold iblk3 G3
  exact block3 hp3 _ _ _ _ t j

/-- An index of the array is in point t's block iff each coordinate is in the block's range on its axis. -/
theorem mem_blk3 (t : Fin cfg3.N) (i : S50000x96.Idx) :
    i ∈ ((cfg3.win 4).blk t).view.set ↔ ∀ a : Fin 2, win3_4.index t a * S5000x96.size a ≤ (i a).val ∧ (i a).val < win3_4.index t a * S5000x96.size a + S5000x96.size a := by
  show i ∈ ((View.whole main_v40).slice (win3_4.rect t)).set ↔ _
  rw [View.set_slice_whole, Rect.mem_set_unit]
  exact Iff.rfl

/-- Row r of the array is in the block of point r / 5000. -/
theorem cover3 (i : S50000x96.Idx) : ∃ t : Fin cfg3.N, (cfg3.win 4).flush t = true ∧ i ∈ ((cfg3.win 4).blk t).view.set := by
  have hi0 : (i 0).val < 50000 := (i 0).isLt
  have hi1 : (i 1).val < 96 := (i 1).isLt
  refine ⟨⟨(i 0).val / 5000, lt_of_lt_of_eq (by omega) N_3.symm⟩, flush3_4 _, ?_⟩
  rw [mem_blk3]
  obtain ⟨a0, a1, b0, b1, w0, w1, d0, d1, c0, c1⟩ := idx3 ⟨(i 0).val / 5000, lt_of_lt_of_eq (by omega) N_3.symm⟩
  intro a
  match a with
  | ⟨0, _⟩ =>
    show win3_4.index _ (0 : Fin 2) * 5000 ≤ (i 0).val ∧ (i 0).val < win3_4.index _ (0 : Fin 2) * 5000 + 5000
    rw [c0]; show (i 0).val / 5000 * 5000 ≤ (i 0).val ∧ (i 0).val < (i 0).val / 5000 * 5000 + 5000; omega
  | ⟨1, _⟩ =>
    show win3_4.index _ (1 : Fin 2) * 96 ≤ (i 1).val ∧ (i 1).val < win3_4.index _ (1 : Fin 2) * 96 + 96
    rw [c1]; omega

/-- Region 3's output array is the dense layer of the aggregated messages, the destination-degree norm, the second weights and the second bias. -/
theorem arr3 (hp3 : ∀ (x : Vec Ideal S5000x96 .f32) (n : Vec Ideal S5000x1 .f32) (w : Vec Ideal S96x96 .f32) (b : Vec Ideal S1x96 .f32), (k3_pay1 (F := Ideal) x n w b : Mat 5000 96) = dense x n w b)
    (c : Dev nD) : ((dat3 V c).arrAt 4 cfg3.N : Mat 50000 96) = dense (V c main_v38) (V c main_v14) (V c main_arg5) (V c main_v39) :=
  (dat3 V c).arrAt_eq_of_cover 4 (G3 V c) (fun t _ => flushed3_eq V hp3 c t) cover3

end Cert.KernelIdeal.ArrVal

end
-- ==== Proof.ArrVal4.lean ====
/-
  Region 4 of the idealized kernel (mean-pool + readout) at the extended reals: after the region the 1 × 8 output
  array is the readout of the column sums of the 50000 × 96 array the region pools.

  The mathematics, in three steps. (1) The carried 1 × 96 accumulator starts at the zero row and at each of the ten
  points adds the column sums of that point's 5000-row block; the block at point t is rows 5000·t … 5000·t + 4999 of
  the array, so after the last point the accumulator holds the ten block sums, which regroup to the column sums of
  the whole array (addition of extended reals is commutative and associative; no finiteness is needed). (2) The
  readout matrix's and bias's windows show the whole arrays at every point. (3) Only the last point writes the output
  back, and its block is the whole output array, so the array ends holding what the last point computed: the readout
  of the accumulator.

  The three payload facts (the zero row, the accumulation step, the readout step) are hypotheses here.
-/
import proofs.«165250_j58265526337787_1_alg».proof.Proof.Spec
import proofs.«165250_j58265526337787_1_alg».proof.Proof.Body4
import Idealize.ShloMosaic.Lib.Pipeline.Value
import Idealize.ShloMosaic.Lib.ValueIdx

noncomputable section

open scoped BigOperators

namespace Cert.KernelIdeal.ArrVal4

open Idealize.ShloMosaic Idealize.ShloMosaic.TcCoe Idealize.ShloMosaic.ValueIdx
open Cert.KernelIdeal Cert.KernelIdeal.Gen Cert.KernelIdeal.Hand Cert.GcnSpec
open Idealize.ShloMosaic.Pipeline (Dat)

variable (V : (c : Dev nD) → (b : Ref sig .tc) → Buf (Elt Ideal) ((c : Thread nD τ).loc b))

/-- The grid of the pooling region has ten points. -/
theorem N4 : cfg4.N = 10 := N_4

/-- The last point of the grid. -/
abbrev t9 : Fin cfg4.N := ⟨9, by decide⟩

/-! ## The blocks the body reads are pieces of the arrays

Window 0 shows, at point t, rows 5000·t … 5000·t + 4999 of the pooled array; windows 1 and 2 show the whole
readout matrix and bias at every point; window 3 is the whole 1 × 8 output. -/

theorem idx4_0 : ∀ t : Fin grid4.N, win4_0.index t 0 = t.val ∧ win4_0.index t 1 = 0 := by decide +kernel
theorem idx4_1 : ∀ t : Fin grid4.N, win4_1.index t 0 = 0 ∧ win4_1.index t 1 = 0 := by decide +kernel
theorem idx4_2 : ∀ t : Fin grid4.N, win4_2.index t 0 = 0 ∧ win4_2.index t 1 = 0 := by decide +kernel

/-- Entry (r, k) of the block at point t is entry (5000·t + r, k) of the pooled array. -/
theorem iblk0_apply (c : Dev nD) (t : Fin cfg4.N) (r : Fin 5000) (k : Fin 96) :
    (iblk4 V c 0 t : Mat 5000 96) (ix2 r k)
      = (V c main_v40 : Mat 50000 96) (ix2 (⟨5000 * t.val + r.val, by have := t.isLt; have : cfg4.N = 10 := N_4; omega⟩ : Fin 50000) k) := by
  have hi := idx4_0 t
  unfold iblk4
  rw [View.read_apply]
  show V c main_v40 _ = V c main_v40 _
  congr 1
  funext a
  apply Fin.ext
  match a with
  | ⟨0, _⟩ => show win4_0.index t 0 * 5000 + 1 * r.val = 5000 * t.val + r.val; rw [hi.1]; omega
  | ⟨1, _⟩ => show win4_0.index t 1 * 96 + 1 * k.val = k.val; rw [hi.2]; omega

/-- The readout matrix's window shows the whole matrix at every point. -/
theorem iblk1_eq (c : Dev nD) (t : Fin cfg4.N) : (iblk4 V c 1 t : Mat 96 8) = V c main_v41 := by
  funext j
  obtain ⟨p, q, rfl⟩ : ∃ p q, j = ix2 p q := ⟨_, _, eq_ix2 j⟩
  have hi := idx4_1 t
  unfold iblk4
  rw [View.read_apply]
  show V c main_v41 _ = V c main_v41 _
  congr 1
  funext a
  apply Fin.ext
  match a with
  | ⟨0, _⟩ => show win4_1.index t 0 * 96 + 1 * p.val = p.val; rw [hi.1]; omega
  | ⟨1, _⟩ => show win4_1.index t 1 * 8 + 1 * q.val = q.val; rw [hi.2]; omega

/-- The readout bias's window shows the whole bias row at every point. -/
theorem iblk2_eq (c : Dev nD) (t : Fin cfg4.N) : (iblk4 V c 2 t : Mat 1 8) = V c main_v42 := by
  funext j
  obtain ⟨p, q, rfl⟩ : ∃ p q, j = ix2 p q := ⟨_, _, eq_ix2 j⟩
  have hi := idx4_2 t
  unfold iblk4
  rw [View.read_apply]
  show V c main_v42 _ = V c main_v42 _
  congr 1
  funext a
  apply Fin.ext
  match a with
  | ⟨0, _⟩ => show win4_2.index t 0 * 1 + 1 * p.val = p.val; rw [hi.1]; omega
  | ⟨1, _⟩ => show win4_2.index t 1 * 8 + 1 * q.val = q.val; rw [hi.2]; omega

/-! ## The accumulator after the last point is the column sums of the whole array -/

/-- The sum of column k over the rows of block t of a 50000-row array (zero past the tenth block). -/
def blockSum (X : Mat 50000 96) (k : Fin 96) (t : ℕ) : EReal :=
  if h : t < 10 then ∑ r : Fin 5000, X (ix2 (⟨5000 * t + r.val, by omega⟩ : Fin 50000) k) else 0

/-- The column sums of the block at point t are the array's block sums. -/
theorem colsum_iblk0 (c : Dev nD) (t : Fin cfg4.N) (k : Fin 96) :
    colsum (iblk4 V c 0 t : Mat 5000 96) k = blockSum (V c main_v40) k t.val := by
  have ht : t.val < 10 := by have := t.isLt; have : cfg4.N = 10 := N4; omega
  unfold colsum blockSum
  rw [dif_pos ht]
  exact Finset.sum_congr rfl fun r _ => iblk0_apply V c t r k

/-- After point n the accumulator's entry k is the sum of the first n + 1 block sums: the zero row plus the first
    block's column sums, then one block more per point. -/
theorem acc4_apply
    (hz : (k4_pay1 (F := Ideal) : Mat 1 96) = fun _ => 0)
    (ha : ∀ (a : Vec Ideal S1x96 .f32) (x : Vec Ideal S5000x96 .f32), (k4_pay2 (F := Ideal) a x : Mat 1 96) = fun j => a j + colsum x (j 1))
    (c : Dev nD) : ∀ (n : ℕ), n < 10 → ∀ k : Fin 96,
      (acc4 V c n : Mat 1 96) (ix2 (0 : Fin 1) k) = ∑ t ∈ Finset.range (n + 1), blockSum (V c main_v40) k t
  | 0, _, k => by
    have e := congrFun (ha (k4_pay1 (F := Ideal)) (iblk4 V c 0 ⟨0, by decide⟩)) (ix2 (0 : Fin 1) k)
    have z : (k4_pay1 (F := Ideal) : Mat 1 96) (ix2 (0 : Fin 1) k) = 0 := congrFun hz _
    rw [acc4_zero]
    refine e.trans ?_
    show (k4_pay1 (F := Ideal) : Mat 1 96) (ix2 (0 : Fin 1) k) + colsum (iblk4 V c 0 ⟨0, by decide⟩ : Mat 5000 96) k = _
    rw [z, zero_add, Finset.sum_range_one]
    exact colsum_iblk0 V c ⟨0, by decide⟩ k
  | n + 1, hn, k => by
    have hN : n + 1 < cfg4.N := by rw [N4]; exact hn
    have e := congrFun (ha (acc4 V c n) (iblk4 V c 0 ⟨n + 1, hN⟩)) (ix2 (0 : Fin 1) k)
    rw [acc4_succ V c n hN]
    refine e.trans ?_
    show (acc4 V c n : Mat 1 96) (ix2 (0 : Fin 1) k) + colsum (iblk4 V c 0 ⟨n + 1, hN⟩ : Mat 5000 96) k = _
    rw [acc4_apply hz ha c n (by omega) k, Finset.sum_range_succ _ (n + 1), colsum_iblk0 V c ⟨n + 1, hN⟩ k]

/-- After the last point it is the column sum of the whole array: the ten block sums regrouped. -/
theorem acc4_last
    (hz : (k4_pay1 (F := Ideal) : Mat 1 96) = fun _ => 0)
    (ha : ∀ (a : Vec Ideal S1x96 .f32) (x : Vec Ideal S5000x96 .f32), (k4_pay2 (F := Ideal) a x : Mat 1 96) = fun j => a j + colsum x (j 1))
    (c : Dev nD) (k : Fin 96) :
    (acc4 V c 9 : Mat 1 96) (ix2 (0 : Fin 1) k) = colsum (V c main_v40) k := by
  rw [acc4_apply V hz ha c 9 (by decide) k, colsum_blocks, Finset.sum_range (fun t => blockSum (V c main_v40) k t)]
  refine Finset.sum_congr rfl fun t _ => ?_
  unfold blockSum
  rw [dif_pos t.isLt]

/-! ## The output array after the run

Only the last point writes the output back, and its one block is the whole 1 × 8 array: after the run the array
holds what the body left in the output's buffer at the last point. -/

theorem idx4_3 : ∀ a : Fin 2, win4_3.index t9 a * main_v43.ty.shape.size a = 0 := by decide +kernel

/-- The one write-back, at the last point, writes the whole of what the body left there. -/
theorem flushed_eq (c : Dev nD) (G : Mat 1 8) (hG : (dat4 V c).after 3 t9 = G) (t : Fin cfg4.N)
    (hf : (cfg4.win 3).flush t = true) :
    (dat4 V c).flushed 3 t = ((cfg4.win 3).blk t).view.read (Elt Ideal) G := by
  have h9 : t.val = 9 := by
    have h := (flush4_3 t).mp hf; have := t.isLt; have : cfg4.N = 10 := N4; omega
  obtain rfl : t = t9 := Fin.ext h9
  show (cfg4.win 3).cut (grid4.coords t9) ((dat4 V c).after 3 t9) = _
  rw [hG]
  have hz' : (fun a => win4_3.index t9 a * main_v43.ty.shape.size a) = fun _ => 0 := funext idx4_3
  exact (Memref.read_access_unit_zero (Elt Ideal) main_v43 hz' (fun a => by rw [congrFun hz' a]; simp) G).symm

/-- So the output array ends holding it: the last point's block covers the array. -/
theorem arrAt_eq (c : Dev nD) (G : Mat 1 8) (hG : (dat4 V c).after 3 t9 = G) :
    ((dat4 V c).arrAt 3 cfg4.N : Mat 1 8) = G :=
  (dat4 V c).arrAt_eq_of_cover 3 G (flushed_eq V c G hG) fun i =>
    ⟨t9, (flush4_3 t9).mpr rfl, by
      show i ∈ ((View.whole main_v43).slice (win4_3.rect t9)).set
      rw [View.set_slice_whole, Rect.mem_set_unit]
      intro a
      have h0 : (i 0 : Nat) < 1 := (i 0).isLt
      have h1 : (i 1 : Nat) < 8 := (i 1).isLt
      match a with
      | ⟨0, _⟩ =>
        show win4_3.index t9 0 * win4_3.size 0 ≤ (i 0 : Nat) ∧ (i 0 : Nat) < win4_3.index t9 0 * win4_3.size 0 + win4_3.xsize (grid4.coords t9) 0
        rw [show win4_3.index t9 0 * win4_3.size 0 = 0 from by decide +kernel, show win4_3.xsize (grid4.coords t9) 0 = 1 from by decide +kernel]; omega
      | ⟨1, _⟩ =>
        show win4_3.index t9 1 * win4_3.size 1 ≤ (i 1 : Nat) ∧ (i 1 : Nat) < win4_3.index t9 1 * win4_3.size 1 + win4_3.xsize (grid4.coords t9) 1
        rw [show win4_3.index t9 1 * win4_3.size 1 = 0 from by decide +kernel, show win4_3.xsize (grid4.coords t9) 1 = 8 from by decide +kernel]; omega⟩

/-- **Region 4's output.** After the region the 1 × 8 output array is the readout of the column sums of the
    50000 × 96 array it pools: the accumulator after the last point holds the column sums, the last point applies the
    readout to it with the whole readout matrix and bias, and that point alone writes the output back, whole. -/
theorem arr4
    (hz : (k4_pay1 (F := Ideal) : Mat 1 96) = fun _ => 0)
    (ha : ∀ (a : Vec Ideal S1x96 .f32) (x : Vec Ideal S5000x96 .f32), (k4_pay2 (F := Ideal) a x : Mat 1 96) = fun j => a j + colsum x (j 1))
    (hr : ∀ (a : Vec Ideal S1x96 .f32) (wt : Vec Ideal S96x8 .f32) (br : Vec Ideal S1x8 .f32), (k4_pay3 (F := Ideal) a wt br : Mat 1 8) = readout (fun k => a (ix2 (0 : Fin 1) k)) wt br)
    (c : Dev nD) :
    ((dat4 V c).arrAt 3 cfg4.N : Mat 1 8) = readout (colsum (V c main_v40)) (V c main_v41) (V c main_v42) := by
  refine arrAt_eq V c _ ?_
  rw [after4_3]
  refine (hr _ _ _).trans ?_
  have e1 : (fun k => (acc4 V c t9.val : Mat 1 96) (ix2 (0 : Fin 1) k)) = colsum (V c main_v40) :=
    funext fun k => acc4_last V hz ha c k
  have e2 := iblk1_eq V c t9
  have e3 := iblk2_eq V c t9
  exact (congrArg (fun s => readout s (iblk4 V c 1 t9 : Mat 96 8) (iblk4 V c 2 t9 : Mat 1 8)) e1).trans
    ((congrArg (fun w => readout (colsum (V c main_v40)) w (iblk4 V c 2 t9 : Mat 1 8)) e2).trans
      (congrArg (fun b => readout (colsum (V c main_v40)) (V c main_v41) b) e3))

end Cert.KernelIdeal.ArrVal4

end
-- ==== Proof.Final.lean ====
/-
  The idealized kernel's result is the reference's last stage applied to the kernel's own argument arrays.

  Boundary by boundary through @main: the host stretches are the reference's own operations (the degree norms, the two
  gathers and scatter-adds, the transposed readout matrix), so they produce the reference's stages; a "scale the rows"
  region produces the reference's broadcast-and-multiply stage, because row r of the result reads only row r of the
  features and the r-th norm; a dense region produces the reference's matmul-plus-bias (clamped) stage, because row r of
  a matrix product reads only row r of the left operand; and the pooling region's accumulator, block after block, holds
  the column sums of the whole array, whose product with 1/50000 is the reference's quotient by 50000.
-/
import proofs.«165250_j58265526337787_1_alg».proof.Proof.Run
import proofs.«165250_j58265526337787_1_alg».proof.Proof.HostRel
import proofs.«165250_j58265526337787_1_alg».proof.Proof.PayIdx
import proofs.«165250_j58265526337787_1_alg».proof.Proof.RefSpec
import proofs.«165250_j58265526337787_1_alg».proof.Proof.ArrVal
import proofs.«165250_j58265526337787_1_alg».proof.Proof.ArrVal4

noncomputable section

namespace Cert.KernelIdeal.Final

open Idealize.ShloMosaic Idealize.ShloMosaic.TcCoe Cert.KernelIdeal Cert.KernelIdeal.Gen Cert.KernelIdeal.Hand Cert.GcnSpec
open Cert.KernelIdeal.HostRel Cert.KernelIdeal.PayIdx Cert.KernelIdeal.ArrVal Cert.KernelIdeal.ArrVal4 Cert.ReferenceIdeal.RefSpec
open Cert.ReferenceIdeal.Read (val_main_v13 val_main_v15 val_main_v25 val_main_v26 val_main_v30 val_main_v33 val_main_v34 val_main_v36
  val_main_v46 val_main_v47 val_main_v51 val_main_v53 val_main_v58 val_main_v60 val_main_v61)

variable (m : (ℓ : Loc nD τ sig) → Buf (Elt Ideal) ℓ) (c : Dev nD)

/-! ## Before region 0: the two norm columns -/

theorem at5_v13 : W5 m c (Proc.devRef .tc main_v13) = val_main_v13 (F := Ideal) (m ((c : Thread nD τ).loc main_arg1)) := pre5_v13 (W0 m c)
theorem at5_v14 : W5 m c (Proc.devRef .tc main_v14) = val_main_v26 (F := Ideal) (m ((c : Thread nD τ).loc main_arg2)) := pre5_v14 (W0 m c)

/-! ## Region 0: the scaled features -/

theorem at6_v15 : W6 m c (Proc.devRef .tc main_v15) = val_main_v15 (F := Ideal) (m ((c : Thread nD τ).loc main_arg0)) (m ((c : Thread nD τ).loc main_arg1)) :=
  (W6_arr m c 2).trans <| (arr0 (V5 m) pay_scale0 c).trans <|
    (congrArg₂ scale (((W5_keep m c main_arg0 (by decide)).trans <| (W4_keep m c main_arg0 (by decide)).trans <| (W3_keep m c main_arg0 (by decide)).trans <| (W2_keep m c main_arg0 (by decide)).trans <| (W1_keep m c main_arg0 (by decide))).trans rfl) (at5_v13 m c)).trans (ref_v15 _ _).symm

/-! ## The first gather and scatter-add, and the first bias row -/

theorem at7_v25 : W7 m c (Proc.devRef .tc main_v25) = val_main_v25 (F := Ideal) (m ((c : Thread nD τ).loc main_arg0)) (m ((c : Thread nD τ).loc main_arg1)) (m ((c : Thread nD τ).loc main_arg2)) :=
  (host1_v25 (W6 m c)).trans <| (congr (congr (congrArg gs (at6_v15 m c)) (((W6_of_ne m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide))).trans rfl)) (((W6_of_ne m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide))).trans rfl)).trans
    (gs_ref25 _ _ _).symm
theorem at7_v26 : W7 m c (Proc.devRef .tc main_v26) = val_main_v30 (F := Ideal) (m ((c : Thread nD τ).loc main_arg4)) :=
  (host1_v26 (W6 m c)).trans (congrArg (val_main_v30 (F := Ideal)) (((W6_of_ne m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide))).trans rfl))
theorem at7_v14 : W7 m c (Proc.devRef .tc main_v14) = val_main_v26 (F := Ideal) (m ((c : Thread nD τ).loc main_arg2)) :=
  ((W7_keep m c main_v14 (by decide)).trans <| (W6_of_ne m c main_v14 (by decide))).trans (at5_v14 m c)

/-! ## Region 1: the first layer -/

theorem at8_v27 : W8 m c (Proc.devRef .tc main_v27) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m c 4).trans <| (arr1 (V7 m) pay_dense1 c).trans <|
    (congr (congr (congr (congrArg denseRelu (at7_v25 m c)) (at7_v14 m c)) (((W7_keep m c main_arg3 (by decide)).trans <| (W6_of_ne m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide))).trans rfl)) (at7_v26 m c)).trans
      (ref_v33 _ _ _ _ _).symm
theorem at8_v13 : W8 m c (Proc.devRef .tc main_v13) = val_main_v13 (F := Ideal) (m ((c : Thread nD τ).loc main_arg1)) :=
  ((W8_of_ne m c main_v13 (by decide)).trans <| (W7_keep m c main_v13 (by decide)).trans <| (W6_in1 m c)).trans (at5_v13 m c)

/-! ## Region 2: the scaled first-layer output -/

theorem at9_v28 : W9 m c (Proc.devRef .tc main_v28) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W9_arr m c 2).trans <| (arr2 (V8 m) pay_scale2 c).trans <|
    (congrArg₂ scale (at8_v27 m c) ((at8_v13 m c).trans (ref_v34_eq _).symm)).trans (ref_v36 _ _ _ _ _).symm

/-! ## The second gather and scatter-add, and the second bias row -/

theorem at10_v38 : W10 m c (Proc.devRef .tc main_v38) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (host3_v38 (W9 m c)).trans <| (congr (congr (congrArg gs (at9_v28 m c)) (((W9_of_ne m c main_arg1 (by decide)).trans <| (W8_of_ne m c main_arg1 (by decide)).trans <| (W7_keep m c main_arg1 (by decide)).trans <| (W6_of_ne m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide))).trans rfl)) (((W9_of_ne m c main_arg2 (by decide)).trans <| (W8_of_ne m c main_arg2 (by decide)).trans <| (W7_keep m c main_arg2 (by decide)).trans <| (W6_of_ne m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide))).trans rfl)).trans
    (gs_ref46 _ _ _ _ _).symm
theorem at10_v39 : W10 m c (Proc.devRef .tc main_v39) = val_main_v51 (F := Ideal) (m ((c : Thread nD τ).loc main_arg6)) :=
  (host3_v39 (W9 m c)).trans (congrArg (val_main_v51 (F := Ideal)) (((W9_of_ne m c main_arg6 (by decide)).trans <| (W8_of_ne m c main_arg6 (by decide)).trans <| (W7_keep m c main_arg6 (by decide)).trans <| (W6_of_ne m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide))).trans rfl))
theorem at10_v14 : W10 m c (Proc.devRef .tc main_v14) = val_main_v47 (F := Ideal) (m ((c : Thread nD τ).loc main_arg2)) :=
  (((W10_keep m c main_v14 (by decide)).trans <| (W9_of_ne m c main_v14 (by decide)).trans <| (W8_in1 m c).trans <| (W7_keep m c main_v14 (by decide)).trans <| (W6_of_ne m c main_v14 (by decide))).trans (at5_v14 m c)).trans (ref_v47_eq _).symm

/-! ## Region 3: the second layer -/

theorem at11_v40 : W11 m c (Proc.devRef .tc main_v40) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W11_arr m c 4).trans <| (arr3 (V10 m) pay_dense3 c).trans <|
    (congr (congr (congr (congrArg dense (at10_v38 m c)) (at10_v14 m c)) (((W10_keep m c main_arg5 (by decide)).trans <| (W9_of_ne m c main_arg5 (by decide)).trans <| (W8_of_ne m c main_arg5 (by decide)).trans <| (W7_keep m c main_arg5 (by decide)).trans <| (W6_of_ne m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide))).trans rfl)) (at10_v39 m c)).trans
      (ref_v53 _ _ _ _ _ _ _).symm

/-! ## The readout's operands -/

theorem at12_v40 : W12 m c (Proc.devRef .tc main_v40) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W12_keep m c main_v40 (by decide))).trans (at11_v40 m c)
theorem at12_v41 : W12 m c (Proc.devRef .tc main_v41) = val_main_v58 (F := Ideal) (m ((c : Thread nD τ).loc main_arg7)) :=
  (host4_v41 (W11 m c)).trans (congrArg (val_main_v58 (F := Ideal)) (((W11_of_ne m c main_arg7 (by decide)).trans <| (W10_keep m c main_arg7 (by decide)).trans <| (W9_of_ne m c main_arg7 (by decide)).trans <| (W8_of_ne m c main_arg7 (by decide)).trans <| (W7_keep m c main_arg7 (by decide)).trans <| (W6_of_ne m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide))).trans rfl))
theorem at12_v42 : W12 m c (Proc.devRef .tc main_v42) = val_main_v60 (F := Ideal) (m ((c : Thread nD τ).loc main_arg8)) :=
  (host4_v42 (W11 m c)).trans (congrArg (val_main_v60 (F := Ideal)) (((W11_of_ne m c main_arg8 (by decide)).trans <| (W10_keep m c main_arg8 (by decide)).trans <| (W9_of_ne m c main_arg8 (by decide)).trans <| (W8_of_ne m c main_arg8 (by decide)).trans <| (W7_keep m c main_arg8 (by decide)).trans <| (W6_of_ne m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide))).trans rfl))

/-! ## Region 4: the result -/

/-- The kernel's result array is the reference's last stage of the kernel's own arguments. -/
theorem result : W13 m c (Proc.devRef .tc main_v43) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W13_arr m c 3).trans <| (arr4 (V12 m) pay_zero4 pay_acc4 pay_readout4 c).trans <|
    (congr (congr (congrArg readout (congrArg colsum (at12_v40 m c))) (at12_v41 m c)) (at12_v42 m c)).trans
      (ref_v61 _ _ _ _ _ _ _ _ _).symm

end Cert.KernelIdeal.Final

end
-- ==== Proof.lean ====
/-
  A two-layer graph convolution with a mean-pool readout, tiled over the 50000 nodes in blocks of 5000 rows, against
  its plain array-at-a-time reference.

  Both programs compute the degree norms, the gathers and the scatter-adds with the same host operations. The kernel
  replaces the reference's whole-array arithmetic by five row-tiled regions: two that scale each feature row by its
  node's norm, two dense layers (scale, multiply by the weights, add the bias, the first clamped at zero), and a
  pooling region that accumulates the blocks' column sums and, at the last block, multiplies by 1/50000, applies the
  readout matrix and adds the bias. On the extended reals a change of float format is the identity, a sum may be
  regrouped freely, and dividing by 50000 is multiplying by 1/50000; each tiled region reads, at row r, only row r of
  its row-indexed operands. So the two results are one function of the arguments, and no finiteness of the inputs
  is used.

  The three frames: each program runs to the end without a fault and leaves its argument arrays as launched — the
  kernel's at both instances from one run of its thirteen segments (eight host stretches, five regions), the
  reference's from its run with the result dropped.
-/
import proofs.«165250_j58265526337787_1_alg».proof.Defs
import proofs.«165250_j58265526337787_1_alg».proof.Proof.Gen.Kernel
import proofs.«165250_j58265526337787_1_alg».proof.Proof.Gen.KernelIdeal
import proofs.«165250_j58265526337787_1_alg».proof.Proof.Gen.ReferenceIdeal
import proofs.«165250_j58265526337787_1_alg».proof.Proof.Gen.Pre_finite_inputs
import proofs.«165250_j58265526337787_1_alg».proof.Proof.Gen.ReferenceIdeal.Run
import proofs.«165250_j58265526337787_1_alg».proof.Proof.Gen.ReferenceIdeal.Read
import proofs.«165250_j58265526337787_1_alg».proof.Proof.Run
import proofs.«165250_j58265526337787_1_alg».proof.Proof.KRun
import proofs.«165250_j58265526337787_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- The idealized kernel runs and leaves its arguments as launched. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the pooling region's literal is the name of 1/50000. -/
theorem preserves : Cert.preserves_Kernel_KernelIdeal :=
  IdealRules.named_const.statement Cert.KernelIdeal.κ "inv_50000" .f32 0x37A7C5AC#32 ((1 / 50000 : ℝ) : EReal) rfl

/-- From memories agreeing on the arguments both idealized programs end with the same result: the reference's last stage
    of the arguments. -/
theorem algebraic : Cert.algebraic_KernelIdeal_ReferenceIdeal := by
  intro m ρ m' ρ' _ hagree
  refine ⟨fun c => Cert.KernelIdeal.Hand.W13 m c (Proc.devRef .tc Cert.KernelIdeal.main_v43), ?_, ?_⟩
  · exact (θ_run Cert.KernelIdeal.defs _ _).mono (fun r h c =>
      ⟨h c _ (Cert.KernelIdeal.Hand.mem_uc Cert.KernelIdeal.main_v43 (by decide)),
       (h c _ (Cert.KernelIdeal.Hand.mem_uc Cert.KernelIdeal.main_arg0 (by decide))).trans (Cert.KernelIdeal.Hand.W13_main_arg0 m c),
       (h c _ (Cert.KernelIdeal.Hand.mem_uc Cert.KernelIdeal.main_arg1 (by decide))).trans (Cert.KernelIdeal.Hand.W13_main_arg1 m c),
       (h c _ (Cert.KernelIdeal.Hand.mem_uc Cert.KernelIdeal.main_arg2 (by decide))).trans (Cert.KernelIdeal.Hand.W13_main_arg2 m c),
       (h c _ (Cert.KernelIdeal.Hand.mem_uc Cert.KernelIdeal.main_arg3 (by decide))).trans (Cert.KernelIdeal.Hand.W13_main_arg3 m c),
       (h c _ (Cert.KernelIdeal.Hand.mem_uc Cert.KernelIdeal.main_arg4 (by decide))).trans (Cert.KernelIdeal.Hand.W13_main_arg4 m c),
       (h c _ (Cert.KernelIdeal.Hand.mem_uc Cert.KernelIdeal.main_arg5 (by decide))).trans (Cert.KernelIdeal.Hand.W13_main_arg5 m c),
       (h c _ (Cert.KernelIdeal.Hand.mem_uc Cert.KernelIdeal.main_arg6 (by decide))).trans (Cert.KernelIdeal.Hand.W13_main_arg6 m c),
       (h c _ (Cert.KernelIdeal.Hand.mem_uc Cert.KernelIdeal.main_arg7 (by decide))).trans (Cert.KernelIdeal.Hand.W13_main_arg7 m c),
       (h c _ (Cert.KernelIdeal.Hand.mem_uc Cert.KernelIdeal.main_arg8 (by decide))).trans (Cert.KernelIdeal.Hand.W13_main_arg8 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact (Cert.KernelIdeal.Final.result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
